-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x1 : S_.BroadcastsInDim S10000x1 (![] : Fin 0 → Fin S10000x1.rank)
  reducesTo_S10000x1_S_d0_1 : S10000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : FVec F S10000x1 .f32) (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_cst_8 : FVec F S_ .f32 := constant S_ .f32 0x00000000#32
  let main_v24 : FVec F S10000x1 .f32 := broadcastInDim S10000x1 ![] bcast_S_S10000x1 main_cst_8
  let main_v25 : IVec S10000x1 1 := cmpf .ogt main_arg2 main_v24
  let main_c_9 : IVec S_ 1 := constantI S_ 1 1#1
  let main_v26 : IVec S_ 1 := (fun x v => Host.reduce IntOp.andi x v reducesTo_S10000x1_S_d0_1 h_S_) main_v25 main_c_9
  let main_v27 : IVec S_ 1 := andi main_v23 main_v26
  main_v27

def fn {F : FTy → Type} [FloatOps F] (main_arg0 : FVec F S10000x128 .f32) (main_arg1 : FVec F S10000x10000 .f32) (main_arg2 : FVec F S10000x1 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg4 main_v13 main_v16
-- ==== Kernel.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S1x128 : Shape := ⟨2, ![1, 128]⟩
abbrev S_ : Shape := ⟨0, ![]⟩
abbrev S10240x128 : Shape := ⟨2, ![10240, 128]⟩
abbrev S256x10000 : Shape := ⟨2, ![256, 10000]⟩
abbrev S512x1 : Shape := ⟨2, ![512, 1]⟩
abbrev S512x128 : Shape := ⟨2, ![512, 128]⟩
abbrev S256x128 : Shape := ⟨2, ![256, 128]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S10240x128, .f32⟩
  | .hbm, ⟨10, _⟩ => ⟨S10000x128, .f32⟩
  | .local _ .vmem, ⟨0, _⟩ => ⟨S256x10000, .f32⟩
  | .local _ .vmem, ⟨1, _⟩ => ⟨S256x10000, .f32⟩
  | .local _ .vmem, ⟨2, _⟩ => ⟨S256x10000, .f32⟩
  | .local _ .vmem, ⟨3, _⟩ => ⟨S256x10000, .f32⟩
  | .local _ .vmem, ⟨4, _⟩ => ⟨S10240x128, .f32⟩
  | .local _ .vmem, ⟨5, _⟩ => ⟨S512x1, .f32⟩
  | .local _ .vmem, ⟨6, _⟩ => ⟨S512x1, .f32⟩
  | .local _ .vmem, ⟨7, _⟩ => ⟨S128x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_call0_v0 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def k0_off1 (i : grid0.Coords) : Fin 2 → Nat :=
  let arg0 : BitVec 32 := BitVec.ofNat 32 (i 0).val
  let c512_i32 : BitVec 32 := 512#32
  let v10 : BitVec 32 := Scalar.muli arg0 c512_i32
  let v11 : Index := Scalar.indexCast v10
  let c0_6 : Index := 0#32
  ![v11.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  shapeCasts_S128_S1x128 : S128.ShapeCasts S1x128
  pads_S10000x128_S10240x128_02400_000 : S10000x128.Pads (![0, 0] : Fin 2 → Nat) ![240, 0] ![0, 0] S10240x128
  h_S_ : 0 < S_.numel
  inb_S10240x128_S10000x128_0_0 : ∀ a, (![0, 0] : Fin 2 → Nat) a + S10000x128.size a ≤ S10240x128.size a
  h_S10000x128 : 0 < S10000x128.numel
  shapeCasts_S10000x128_S10000x128 : S10000x128.ShapeCasts S10000x128
  bitsLt_bf16_f32 : FTy.bits .bf16 < FTy.bits .f32
  inb_S256x10000_S256x10000_0_0 : ∀ a, (![0, 0] : Fin 2 → Nat) a + S256x10000.size a ≤ S256x10000.size a
  h_S256x10000 : 0 < S256x10000.numel
  concatenates_S256x128_S256x128_S512x128_d0 : Shape.Concatenates [S256x128, S256x128] S512x128 0
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  broadcasts_S512x1_S512x128 : S512x1.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  dot_S256x10000_S10000x128_S256x128_1_0_0_1_n_n_wf : DotDims.WF S256x10000 S10000x128 S256x128 [1] [0] [0] [1] [] []
  dot_S512x128_S128x128_S512x128_1_0_0_1_n_n_wf : DotDims.WF S512x128 S128x128 S512x128 [1] [0] [0] [1] [] []
  hrank0 : 0 < grid0.rank
  k0_off1_inb : ∀ i : grid0.Coords, ∀ a, (k0_off1 i) a + S512x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x10000.size a < S10000x10000.size a
  hwx0_0 : ∀ i : grid0.Coords, EltTy.bits .f32 = 32 ∨ (Rect.unit (s := S10000x10000) (fun a => cc0_transform_0 i a * S256x10000.size a) (fun a => (Pipeline.Clip.of (cc0_transform_0 i a) (S256x10000.size a) (S10000x10000.size a)).extent (S256x10000.size a)) fun a => Pipeline.Clip.inb (Pipeline.Clip.ok_of (hstart0_0 i a))).WholeWords (EltTy.packing .f32)
  hwxs0_0 : ∀ i : grid0.Coords, EltTy.bits .f32 = 32 ∨ (Rect.unit (s := S256x10000) (fun _ => 0) (fun a => (Pipeline.Clip.of (cc0_transform_0 i a) (S256x10000.size a) (S10000x10000.size a)).extent (S256x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x10000.size a < S10000x10000.size a
  hwx0_1 : ∀ i : grid0.Coords, EltTy.bits .f32 = 32 ∨ (Rect.unit (s := S10000x10000) (fun a => cc0_transform_1 i a * S256x10000.size a) (fun a => (Pipeline.Clip.of (cc0_transform_1 i a) (S256x10000.size a) (S10000x10000.size a)).extent (S256x10000.size a)) fun a => Pipeline.Clip.inb (Pipeline.Clip.ok_of (hstart0_1 i a))).WholeWords (EltTy.packing .f32)
  hwxs0_1 : ∀ i : grid0.Coords, EltTy.bits .f32 = 32 ∨ (Rect.unit (s := S256x10000) (fun _ => 0) (fun a => (Pipeline.Clip.of (cc0_transform_1 i a) (S256x10000.size a) (S10000x10000.size a)).extent (S256x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x128.size a ≤ S10240x128.size a
  hwx0_2 : ∀ i : grid0.Coords, EltTy.bits .f32 = 32 ∨ (Rect.block (s := S10240x128) S10240x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x1.size a < S10000x1.size a
  hwx0_3 : ∀ i : grid0.Coords, EltTy.bits .f32 = 32 ∨ (Rect.unit (s := S10000x1) (fun a => cc0_transform_3 i a * S512x1.size a) (fun a => (Pipeline.Clip.of (cc0_transform_3 i a) (S512x1.size a) (S10000x1.size a)).extent (S512x1.size a)) fun a => Pipeline.Clip.inb (Pipeline.Clip.ok_of (hstart0_3 i a))).WholeWords (EltTy.packing .f32)
  hwxs0_3 : ∀ i : grid0.Coords, EltTy.bits .f32 = 32 ∨ (Rect.unit (s := S512x1) (fun _ => 0) (fun a => (Pipeline.Clip.of (cc0_transform_3 i a) (S512x1.size a) (S10000x1.size a)).extent (S512x1.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x128.size a < S10000x128.size a
  hwx0_6 : ∀ i : grid0.Coords, EltTy.bits .f32 = 32 ∨ (Rect.unit (s := S10000x128) (fun a => cc0_transform_6 i a * S512x128.size a) (fun a => (Pipeline.Clip.of (cc0_transform_6 i a) (S512x128.size a) (S10000x128.size a)).extent (S512x128.size a)) fun a => Pipeline.Clip.inb (Pipeline.Clip.ok_of (hstart0_6 i a))).WholeWords (EltTy.packing .f32)
  hwxs0_6 : ∀ i : grid0.Coords, EltTy.bits .f32 = 32 ∨ (Rect.unit (s := S512x128) (fun _ => 0) (fun a => (Pipeline.Clip.of (cc0_transform_6 i a) (S512x128.size a) (S10000x128.size a)).extent (S512x128.size a)) fun a => (Nat.zero_add _).trans_le (Pipeline.Clip.extent_le (Pipeline.Clip.ok_of (hstart0_6 i a)))).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpecClip (Memref.whole main_arg1) S256x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S256x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v2) S10240x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg2) S512x1.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_call0_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v0) S512x128.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S10000 : Shape := ⟨1, ![10000]⟩
abbrev S_ : Shape := ⟨0, ![]⟩
abbrev S10000x2 : Shape := ⟨2, ![10000, 2]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S10000, .i32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S_, .i32⟩
  | .hbm, ⟨14, _⟩ => ⟨S10000, .i32⟩
  | .hbm, ⟨15, _⟩ => ⟨S10000, .i1⟩
  | .hbm, ⟨16, _⟩ => ⟨S_, .i32⟩
  | .hbm, ⟨17, _⟩ => ⟨S10000, .i32⟩
  | .hbm, ⟨18, _⟩ => ⟨S10000, .i32⟩
  | .hbm, ⟨19, _⟩ => ⟨S10000, .i32⟩
  | .hbm, ⟨20, _⟩ => ⟨S10000x1, .i32⟩
  | .hbm, ⟨21, _⟩ => ⟨S10000x1, .i32⟩
  | .hbm, ⟨22, _⟩ => ⟨S10000x2, .i32⟩
  | .hbm, ⟨23, _⟩ => ⟨S_, .f32⟩
  | .hbm, ⟨24, _⟩ => ⟨S10000, .f32⟩
  | .hbm, ⟨25, _⟩ => ⟨S10000x10000, .f32⟩
  | .hbm, ⟨26, _⟩ => ⟨S10000x1, .f32⟩
  | .hbm, ⟨27, _⟩ => ⟨S10000x10000, .f32⟩
  | .hbm, ⟨28, _⟩ => ⟨S10000x10000, .f32⟩
  | .hbm, ⟨29, _⟩ => ⟨S10000x10000, .f32⟩
  | .hbm, ⟨30, _⟩ => ⟨S10000x10000, .f32⟩
  | .hbm, ⟨31, _⟩ => ⟨S10000x128, .f32⟩
  | .hbm, ⟨32, _⟩ => ⟨S10000x128, .f32⟩
  | .hbm, ⟨33, _⟩ => ⟨S128x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  bcast_S10000x1_S10000x10000_0_1 : S10000x1.BroadcastsInDim S10000x10000 (![0, 1] : Fin 2 → Fin S10000x10000.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  scatter_S10000x10000_S10000x2_S10000_n_01_01_1_wf : ScatterDims.WF S10000x10000 S10000x2 S10000 [] [0, 1] [0, 1] 1
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The graph-convolution layer as ONE function of its five argument arrays, over the extended reals.

  For a node `r` and a feature `j` the aggregated feature is
      pool r j = (1 / deg r) · (∑ₖ A r k · x k j + x r j) + x r j :
  the neighbours' features weighted by the adjacency row, plus the node's own feature (the self-loop), scaled by the
  reciprocal degree, plus the node's feature once more (the residual term). The layer's output at node `r` and output
  feature `o` is the rectified affine image
      layer r o = max (∑ⱼ pool r j · W o j + b o) 0.
  This module imports no program: both programs are compared against these two definitions.
-/
import Idealize.ShloMosaic.PureOps.Ideal
import Idealize.ShloMosaic.Lib.ValueIdx

noncomputable section

open scoped BigOperators

namespace Cert.GcnSpec

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- The aggregated feature `j` of node `r`: the adjacency row against the feature column, plus the self-loop,
    scaled by the reciprocal degree, plus the residual. -/
def pool (x : Mat 10000 128) (A : Mat 10000 10000) (deg : Mat 10000 1) (r : Fin 10000) (j : Fin 128) : EReal :=
  Ideal.div 1 (deg (ix2 r 0)) * ((∑ k : Fin 10000, A (ix2 r k) * x (ix2 k j)) + x (ix2 r j)) + x (ix2 r j)

/-- The layer's output: the rectified affine image of the aggregated features. -/
def layer (x : Mat 10000 128) (A : Mat 10000 10000) (deg : Mat 10000 1) (W : Mat 128 128) (b : Row 128) :
    Mat 10000 128 := fun i =>
  max ((∑ j : Fin 128, pool x A deg (i 0) j * W (ix2 (i 1) j)) + b (ix1 (i 1))) 0

end Cert.GcnSpec

end
-- ==== Proof.Algebra.lean ====
/-
  The algebra that relates the two arrangements of the aggregation step of the graph-convolution layer.

  One arrangement normalises the adjacency matrix symmetrically: with `c = 1/√d` for the degree `d` of node `r`,
  the row `r` of the normalised matrix is `c · (A r k + [r = k]) · c` (the `[r = k]` is the self-loop added on the
  diagonal), and the aggregated feature is `∑ₖ (c · (A r k + [r = k]) · c) · x k + x r`. The other arrangement sums
  the raw row first and scales once: `(1/d) · (∑ₖ A r k · x k + x r) + x r`. Since `c · c = 1/d` for `d > 0`, the
  self-loop term contributes `(1/d) · x r` and the two agree. The law is proved over the reals on an abstract finite
  index type and then transported to the extended reals for finite entries.
-/
import Idealize.ShloMosaic.PureOps.Ideal

noncomputable section

open scoped BigOperators

namespace Cert.GcnAlgebra

open Idealize.ShloMosaic

/-- The coercion of the reals into the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law over the reals: the symmetric normalisation with `c · c = e` and the self-loop on the diagonal is the
    single scaling by `e` of the row sum plus the node's own feature. -/
theorem pool_law_real {ι : Type} [Fintype ι] [DecidableEq ι] (r : ι) (a x : ι → ℝ) (c e : ℝ) (h : c * c = e) :
    (∑ k, (c * (a k + if r = k then 1 else 0) * c) * x k) + x r = e * ((∑ k, a k * x k) + x r) + x r := by
  have hk : ∀ k, (c * (a k + if r = k then 1 else 0) * c) * x k
      = e * (a k * x k) + (if r = k then e * x k else 0) := by
    intro k
    subst h
    split_ifs <;> ring
  rw [Finset.sum_congr rfl (fun k _ => hk k), Finset.sum_add_distrib, ← Finset.mul_sum, Finset.sum_ite_eq]
  simp only [Finset.mem_univ, if_true]
  ring

/-- For a positive real degree `d` the reciprocal square root is the real `(√d)⁻¹`. -/
theorem rsqrt_coe_pos {d : ℝ} (hd : 0 < d) : Ideal.rsqrt (d : EReal) = (((Real.sqrt d)⁻¹ : ℝ) : EReal) := by
  rw [Ideal.rsqrt_coe, if_neg (not_lt.2 hd.le), if_neg hd.ne']

/-- For a positive real degree `d` the quotient `1 / d` is the real `d⁻¹`. -/
theorem div_one_coe_pos {d : ℝ} (hd : 0 < d) : Ideal.div 1 (d : EReal) = ((d⁻¹ : ℝ) : EReal) := by
  rw [Ideal.div_coe hd.ne', one_mul, one_div]

/-- The square of `(√d)⁻¹` is `d⁻¹` for `d > 0`. -/
theorem inv_sqrt_mul_self {d : ℝ} (hd : 0 < d) : (Real.sqrt d)⁻¹ * (Real.sqrt d)⁻¹ = d⁻¹ := by
  rw [← mul_inv, Real.mul_self_sqrt hd.le]

/-- The law over the extended reals, for finite entries and a finite positive degree: the aggregation through the
    symmetrically normalised adjacency row with its self-loop equals the aggregation that sums the raw row, adds the
    node's own feature and scales once by the reciprocal degree. -/
theorem pool_law {ι : Type} [Fintype ι] [DecidableEq ι] (r : ι) (A x : ι → EReal) (dg : EReal)
    (hA : ∀ k, ∃ a : ℝ, A k = (a : EReal)) (hx : ∀ k, ∃ y : ℝ, x k = (y : EReal))
    (hd : ∃ d : ℝ, dg = (d : EReal)) (hpos : 0 < dg) :
    (∑ k, (Ideal.rsqrt dg * (A k + if r = k then 1 else 0) * Ideal.rsqrt dg) * x k) + x r
      = Ideal.div 1 dg * ((∑ k, A k * x k) + x r) + x r := by
  choose a ha using hA
  choose y hy using hx
  obtain ⟨d, rfl⟩ := hd
  have hd0 : 0 < d := by exact_mod_cast hpos
  have hite : ∀ k, (if r = k then (1 : EReal) else 0) = (((if r = k then (1 : ℝ) else 0) : ℝ) : EReal) := by
    intro k
    split_ifs <;> simp
  rw [rsqrt_coe_pos hd0, div_one_coe_pos hd0]
  simp only [ha, hy, hite, ← EReal.coe_mul, ← EReal.coe_add, ← coe_sum]
  exact congrArg _ (pool_law_real r a y _ _ (inv_sqrt_mul_self hd0))

end Cert.GcnAlgebra

end
-- ==== Proof.RefAt.lean ====
/-
  The reference program's result, read at an index, is the graph-convolution layer of the specification.

  The reference builds the adjacency matrix with self-loops by adding the constant one at the index pairs `(r, r)`:
  the pairs are the two columns of one table whose row `r` holds the row number `r` twice (the wrap-around of a
  negative index leaves a row number `0 ≤ r < 10000` unchanged), so an update lands on the element `(r, k)` exactly
  when `k = r`, and the matrix after the scatter is `A r k + [r = k]`. It then scales this matrix on both sides by
  the reciprocal square root of the degree of the row, multiplies by the features, adds the features, applies the
  affine map through the transposed weights and the bias, and rectifies. Read stage by stage at an index `(r, o)`
  this is `max (∑ⱼ (∑ₖ (c · (A r k + [r = k]) · c) · x k j + x r j) · W o j + b o) 0` with `c` the reciprocal square
  root of the degree of `r`; the inner sum is the aggregated feature of the specification by the algebraic law for
  finite entries and a positive degree.
-/
import proofs.«117304_g23605140259235_cont_8to1_1967_15_alg».proof.Proof.Gen.ReferenceIdeal.Read
import proofs.«117304_g23605140259235_cont_8to1_1967_15_alg».proof.Proof.Spec
import proofs.«117304_g23605140259235_cont_8to1_1967_15_alg».proof.Proof.Algebra
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- A row number below 10000, as a 32-bit word, reads signed as itself. -/
theorem toInt_small (n : Nat) (h : n < 10000) : (BitVec.ofNat 32 n).toInt = (n : Int) := by
  have hn : (BitVec.ofNat 32 n).toNat = n := by rw [BitVec.toNat_ofNat]; omega
  rw [BitVec.toInt_eq_toNat_of_lt (by rw [hn]; omega), hn]

/-- A row number below 10000, as a 32-bit word, is not negative when read signed. -/
theorem not_slt_zero (n : Nat) (h : n < 10000) : IntOp.cmpi .slt (BitVec.ofNat 32 n) 0#32 = 0#1 := by
  have e : (BitVec.ofNat 32 n).slt 0#32 = false := by
    rw [BitVec.slt, toInt_small n h]
    simp
  simp only [IntOp.cmpi, e]
  rfl

/-- The first index column after the wrap-around of negative indices: the row number itself. -/
theorem v5_apply (i : S10000.Idx) : val_main_v5 (F := Ideal) i = BitVec.ofNat 32 (i 0).val := by
  rw [val_main_v5_apply, val_main_v2_apply, val_main_v0_apply, val_main_v1_apply, val_main_c_apply,
    not_slt_zero _ (i 0).isLt, select_zero]

/-- The second index column after the wrap-around of negative indices: the row number itself. -/
theorem v10_apply (i : S10000.Idx) : val_main_v10 (F := Ideal) i = BitVec.ofNat 32 (i 0).val := by
  rw [val_main_v10_apply, val_main_v7_apply, val_main_v0_apply, val_main_v6_apply, val_main_c_1_apply,
    not_slt_zero _ (i 0).isLt, select_zero]

/-- The index table, the two columns side by side: both entries of row `r` are the row number `r`. -/
theorem v13_apply (j : S10000x2.Idx) : val_main_v13 (F := Ideal) j = BitVec.ofNat 32 (j 0).val := by
  unfold val_main_v13
  have hlt : (j 1).val < 2 := (j 1).isLt
  by_cases h : (j 1).val = 0
  · rw [concatenate_pair_apply_left (1 : Fin S10000x2.rank) _ _ concatenates_S10000x1_S10000x1_S10000x2_d1 j rfl (ix2 (j 0) 0)
      (fun b => by match b with
        | ⟨0, _⟩ => rfl
        | ⟨1, _⟩ => exact h.symm)]
    rw [val_main_v11_apply, v5_apply]
  · have h1 : (j 1).val = 1 := by omega
    rw [concatenate_pair_apply_right (1 : Fin S10000x2.rank) _ _ concatenates_S10000x1_S10000x1_S10000x2_d1 j rfl rfl (ix2 (j 0) 0)
      (fun b hb => by match b with
        | ⟨0, _⟩ => rfl
        | ⟨1, _⟩ => exact absurd rfl hb)
      (by show 0 + 1 = (j 1).val; omega)]
    rw [val_main_v12_apply, v10_apply]

/-- The scatter's dimension numbers: a scalar update per table row, the two table columns naming the two operand axes. -/
abbrev SD : ScatterDims S10000x10000 S10000x2 S10000 := scatter_S10000x10000_S10000x2_S10000_n_01_01_1

/-- A scalar update has no window: its window coordinate is zero on both operand axes. -/
theorem sd_window (j : S10000.Idx) (a : Fin S10000x10000.rank) : SD.window j a = 0 := by
  unfold ScatterDims.window
  have h : SD.sKept = [] := by decide
  rw [dif_neg (fun hm => by rw [h] at hm; cases hm)]

/-- The start on the row axis for update `j` is the first table entry of row `j`, read signed. -/
theorem sd_start0 (j : S10000.Idx) (idx : IVec S10000x2 32) : SD.start j idx 0 = (idx (ix2 (j 0) 0)).toInt := by
  unfold ScatterDims.start
  rw [dif_pos (by decide)]
  congr 2
  funext b
  match b with
  | ⟨0, _⟩ => rfl
  | ⟨1, _⟩ => rfl

/-- The start on the column axis for update `j` is the second table entry of row `j`, read signed. -/
theorem sd_start1 (j : S10000.Idx) (idx : IVec S10000x2 32) : SD.start j idx 1 = (idx (ix2 (j 0) 1)).toInt := by
  unfold ScatterDims.start
  rw [dif_pos (by decide)]
  congr 2
  funext b
  match b with
  | ⟨0, _⟩ => rfl
  | ⟨1, _⟩ => rfl

/-- With the table of row numbers, update `j` has the coordinate `j` on both operand axes. -/
theorem sd_pos (j : S10000.Idx) (a : Fin S10000x10000.rank) :
    SD.start j (val_main_v13 (F := Ideal)) a + SD.window j a = ((j 0).val : Int) := by
  rw [sd_window]
  match a with
  | ⟨0, _⟩ => rw [show (⟨0, _⟩ : Fin S10000x10000.rank) = 0 from rfl, sd_start0, v13_apply, toInt_small _ (j 0).isLt]; rfl
  | ⟨1, _⟩ => rw [show (⟨1, _⟩ : Fin S10000x10000.rank) = 1 from rfl, sd_start1, v13_apply, toInt_small _ (j 0).isLt]; rfl

/-- Update `j` lands on the diagonal element `(j, j)`, inside the matrix. -/
theorem sd_resultIdx (j : S10000.Idx) :
    SD.resultIdx? j (val_main_v13 (F := Ideal)) = some (ix2 (j 0) (j 0)) := by
  unfold ScatterDims.resultIdx?
  have hj : (j 0).val < 10000 := (j 0).isLt
  rw [dif_pos (fun a => by
    rw [sd_pos]
    match a with
    | ⟨0, _⟩ => exact ⟨by omega, by show ((j 0).val : Int) < (10000 : Nat); omega⟩
    | ⟨1, _⟩ => exact ⟨by omega, by show ((j 0).val : Int) < (10000 : Nat); omega⟩)]
  congr 1
  funext a
  apply Fin.ext
  show (SD.start j (val_main_v13 (F := Ideal)) a + SD.window j a).toNat = _
  rw [sd_pos]
  match a with
  | ⟨0, _⟩ => rfl
  | ⟨1, _⟩ => rfl

/-- The word `0x3F800000` is the real number one. -/
theorem ofBits_one : Ideal.ofBits .f32 0x3F800000#32 = 1 := by
  simp [Ideal.ofBits, Ideal.ieee]
  rw [← EReal.coe_mul]
  norm_num

/-- The adjacency matrix after the scatter-add of the constant one at the index pairs `(r, r)`: one is added on the
    diagonal and nowhere else. -/
theorem v15_apply (x1 : FVec Ideal S10000x10000 .f32) (r k : Fin 10000) :
    val_main_v15 (F := Ideal) x1 (ix2 r k) = x1 (ix2 r k) + if r = k then 1 else 0 := by
  unfold val_main_v15
  show Ideal.hostScatterAdd SD x1 _ _ (ix2 r k) = _
  unfold Ideal.hostScatterAdd
  congr 1
  simp only [val_main_v14_apply, val_main_cst_apply, Ideal.ofBits_def, ofBits_one]
  by_cases h : r = k
  · subst h
    rw [if_pos rfl]
    have hs : (Finset.univ.filter fun j : S10000.Idx =>
        SD.resultIdx? j (val_main_v13 (F := Ideal)) = some (ix2 r r)) = {ix1 r} := by
      ext j
      rw [Finset.mem_filter, sd_resultIdx, Finset.mem_singleton]
      constructor
      · rintro ⟨_, e⟩
        have e' : (ix2 (j 0) (j 0) : S10000x10000.Idx) = ix2 r r := Option.some.inj e
        have e0 : (j 0).val = r.val := congrArg Fin.val (congrFun e' 0 :)
        rw [eq_ix1 j]
        exact congrArg ix1 (Fin.ext e0)
      · rintro rfl
        exact ⟨Finset.mem_univ _, rfl⟩
    rw [hs, Finset.sum_singleton]
  · rw [if_neg h]
    have hs : (Finset.univ.filter fun j : S10000.Idx =>
        SD.resultIdx? j (val_main_v13 (F := Ideal)) = some (ix2 r k)) = ∅ := by
      ext j
      rw [Finset.mem_filter, sd_resultIdx]
      simp only [Finset.mem_univ, true_and, Finset.notMem_empty, iff_false]
      intro e
      have e' : (ix2 (j 0) (j 0) : S10000x10000.Idx) = ix2 r k := Option.some.inj e
      have e0 : (j 0).val = r.val := congrArg Fin.val (congrFun e' 0 :)
      have e1 : (j 0).val = k.val := congrArg Fin.val (congrFun e' 1 :)
      exact h (Fin.ext (e0.symm.trans e1))
    rw [hs, Finset.sum_empty]
/-- The specification's layer at the index `(r, o)`. -/
theorem layer_apply (x : GcnSpec.Mat 10000 128) (A : GcnSpec.Mat 10000 10000) (deg : GcnSpec.Mat 10000 1)
    (W : GcnSpec.Mat 128 128) (b : GcnSpec.Row 128) (r : Fin 10000) (o : Fin 128) :
    GcnSpec.layer x A deg W b (ix2 r o)
      = max ((∑ j : Fin 128, GcnSpec.pool x A deg r j * W (ix2 o j)) + b (ix1 o)) 0 := rfl

/-! The index functions of the reading, at an index given by its coordinates. -/

theorem lidx24_eq (r : Fin 10000) (o k : Fin 128) : lidx_main_v24 (ix2 r o) k = ix2 r k :=
  funext fun a => Fin.ext (by match a with | ⟨0, _⟩ => rfl | ⟨1, _⟩ => rfl)
theorem ridx24_eq (r : Fin 10000) (o k : Fin 128) : ridx_main_v24 (ix2 r o) k = ix2 k o :=
  funext fun a => Fin.ext (by match a with | ⟨0, _⟩ => rfl | ⟨1, _⟩ => rfl)
theorem idx23_eq (k o : Fin 128) : idx_main_v23 (ix2 k o) = ix2 o k :=
  funext fun a => Fin.ext (by match a with | ⟨0, _⟩ => rfl | ⟨1, _⟩ => rfl)
theorem lidx21_eq (r : Fin 10000) (j : Fin 128) (k : Fin 10000) : lidx_main_v21 (ix2 r j) k = ix2 r k :=
  funext fun a => Fin.ext (by match a with | ⟨0, _⟩ => rfl | ⟨1, _⟩ => rfl)
theorem ridx21_eq (r : Fin 10000) (j : Fin 128) (k : Fin 10000) : ridx_main_v21 (ix2 r j) k = ix2 k j :=
  funext fun a => Fin.ext (by match a with | ⟨0, _⟩ => rfl | ⟨1, _⟩ => rfl)
theorem idx17_eq (r k : Fin 10000) : idx_main_v17 (ix2 r k) = ix2 r 0 :=
  funext fun a => Fin.ext (by match a with | ⟨0, _⟩ => rfl | ⟨1, _⟩ => rfl)
theorem idx19_eq (r k : Fin 10000) : idx_main_v19 (ix2 r k) = ix2 r 0 :=
  funext fun a => Fin.ext (by match a with | ⟨0, _⟩ => rfl | ⟨1, _⟩ => rfl)
theorem idx25_26_eq (r : Fin 10000) (o : Fin 128) : idx_main_v25 (idx_main_v26 (ix2 r o)) = ix1 o :=
  funext fun a => Fin.ext (by match a with | ⟨0, _⟩ => rfl)

/-- For finite features, adjacency entries and degrees, and positive degrees, the reference's result is the layer of
    the specification. -/
theorem reference_eq_layer (x0 : FVec Ideal S10000x128 .f32) (x1 : FVec Ideal S10000x10000 .f32)
    (x2 : FVec Ideal S10000x1 .f32) (x3 : FVec Ideal S128x128 .f32) (x4 : FVec Ideal S128 .f32)
    (h0 : ∀ i, ∃ y : ℝ, x0 i = (y : EReal)) (h1 : ∀ i, ∃ y : ℝ, x1 i = (y : EReal))
    (h2 : ∀ i, ∃ y : ℝ, x2 i = (y : EReal)) (hpos : ∀ i, 0 < x2 i) :
    val_main_v28 (F := Ideal) x0 x1 x2 x3 x4 = GcnSpec.layer x0 x1 x2 x3 x4 := by
  funext i
  obtain ⟨r, o, rfl⟩ : ∃ (r : Fin 10000) (o : Fin 128), i = ix2 r o := ⟨i 0, i 1, eq_ix2 i⟩
  rw [layer_apply, val_main_v28_apply, val_main_v27_apply, val_main_v24_apply, val_main_call0_v0_apply,
    val_main_call0_cst_apply, val_main_v26_apply, val_main_v25_apply, idx25_26_eq]
  simp only [lidx24_eq, ridx24_eq, val_main_v23_apply, idx23_eq, val_main_v22_apply, val_main_v21_apply, lidx21_eq,
    ridx21_eq, val_main_v20_apply, val_main_v18_apply, val_main_v17_apply, val_main_v19_apply, idx17_eq, idx19_eq,
    val_main_v16_apply, v15_apply, Ideal.addf_def, Ideal.mulf_def, Ideal.maximumf_def, Ideal.hostUnary_rsqrt_def,
    Ideal.ofBits_def, Ideal.ofBits_zero_f32]
  congr 1
  congr 1
  refine Finset.sum_congr rfl fun j _ => ?_
  congr 1
  exact GcnAlgebra.pool_law r (fun k => x1 (ix2 r k)) (fun k => x0 (ix2 k j)) (x2 (ix2 r 0)) (fun k => h1 _)
    (fun k => h0 _) (h2 _) (hpos _)

end Cert.ReferenceIdeal.RefValue

end
-- ==== Proof.PreFacts.lean ====
/-
  The precondition, decoded. The printed predicate is the conjunction of six `all` reductions: for each of the five
  float arrays, that every entry has absolute value below the positive infinity, and for the degree array that every
  entry is above zero. When the predicate is all ones, every entry of the five arrays is therefore a real number and
  every degree is positive.
-/
import proofs.«117304_g23605140259235_cont_8to1_1967_15_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Cert.Pre_finite_inputs Idealize.ShloMosaic Idealize.ShloMosaic.ValueIdx

/-- The shape with no axes has one index. -/
instance : Subsingleton S_.Idx := ⟨fun a b => funext fun d => d.elim0⟩

/-- The word `0x7F800000` is the positive infinity. -/
theorem ofBits_inf : Ideal.ofBits .f32 0x7F800000#32 = ⊤ := by simp [Ideal.ofBits, Ideal.ieee]

/-- The word `0x00000000` is zero. -/
theorem ofBits_zero : Ideal.ofBits .f32 0x00000000#32 = 0 := Ideal.ofBits_zero_f32

/-- An extended real whose absolute value is below the positive infinity is a real. -/
theorem real_of_abs_lt (x : EReal) (h : Ideal.cmp .olt (max x (-x)) ⊤ = 1#1) : ∃ y : ℝ, x = (y : EReal) := by
  have hlt : max x (-x) < ⊤ := by
    by_contra hn
    simp [Ideal.cmp, hn] at h
  induction x using EReal.rec with
  | bot => simp at hlt
  | coe y => exact ⟨y, rfl⟩
  | top => simp at hlt

/-- An extended real that the ordered comparison finds above zero is positive. -/
theorem pos_of_gt (x : EReal) (h : Ideal.cmp .ogt x 0 = 1#1) : 0 < x := by
  by_contra hn
  simp [Ideal.cmp, hn] at h

/-- An entry whose comparison word `|x| < +∞` is one is a real. -/
theorem real_of_word (x : EReal)
    (h : Ideal.cmp .olt (max x (-x)) (Ideal.ofBits .f32 0x7F800000#32) = 1#1) : ∃ y : ℝ, x = (y : EReal) := by
  rw [ofBits_inf] at h
  exact real_of_abs_lt x h

/-- An entry whose comparison word `x > 0` is one is positive. -/
theorem pos_of_word (x : EReal) (h : Ideal.cmp .ogt x (Ideal.ofBits .f32 0x00000000#32) = 1#1) : 0 < x := by
  rw [ofBits_zero] at h
  exact pos_of_gt x h

/-- When the printed precondition is all ones on the five argument arrays, every entry of each array is a real number
    and every entry of the degree array is positive. -/
theorem pre_facts [Cert.Pre_finite_inputs.Facts] (a0 : FVec Ideal S10000x128 .f32) (a1 : FVec Ideal S10000x10000 .f32)
    (a2 : FVec Ideal S10000x1 .f32) (a3 : FVec Ideal S128x128 .f32) (a4 : FVec Ideal S128 .f32)
    (h : Cert.Pre_finite_inputs.fn (F := Ideal) a0 a1 a2 a3 a4 = (fun _ => 1#1)) :
    (∀ i, ∃ y : ℝ, a0 i = (y : EReal)) ∧ (∀ i, ∃ y : ℝ, a1 i = (y : EReal)) ∧ (∀ i, ∃ y : ℝ, a2 i = (y : EReal))
      ∧ (∀ i, ∃ y : ℝ, a3 i = (y : EReal)) ∧ (∀ i, ∃ y : ℝ, a4 i = (y : EReal)) ∧ (∀ i, 0 < a2 i) := by
  have h' := congrFun h ix0
  dsimp only [Cert.Pre_finite_inputs.fn, Cert.Pre_finite_inputs.fn_part1] at h'
  obtain ⟨h4, e5⟩ := IntOp.andi_eq_one.1 h'
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  have f0 := Host.reduce_andi_all _ _ _ _ ix0 e0
  have f1 := Host.reduce_andi_all _ _ _ _ ix0 e1
  have f2 := Host.reduce_andi_all _ _ _ _ ix0 e2
  have f3 := Host.reduce_andi_all _ _ _ _ ix0 e3
  have f4 := Host.reduce_andi_all _ _ _ _ ix0 e4
  have f5 := Host.reduce_andi_all _ _ _ _ ix0 e5
  exact ⟨fun i => real_of_word _ (f0 i), fun i => real_of_word _ (f1 i), fun i => real_of_word _ (f2 i),
    fun i => real_of_word _ (f3 i), fun i => real_of_word _ (f4 i), fun i => pos_of_word _ (f5 i)⟩

end Cert.PreFacts

end
-- ==== Proof.FrameBaseK.lean ====
/-
  The kernel's frame, first part: the program up to its one region, and the body.

  The program pads the feature matrix with 240 zero rows, transposes the weight and reshapes the bias on the host, and
  then runs one pipelined region over a grid of twenty points. At point `i` the body reads two adjacent strips of 256
  adjacency rows each (rows 512·i … 512·i + 511 of the adjacency matrix: two windows on ONE array), the whole padded feature
  matrix, the block of 512 reciprocal-degree denominators, the transposed weight and the bias row, and stores ONE block
  of 512 output rows. The last point's blocks reach past row 9999; what is staged there past the arrays' end is not named.

  This module states what the region finds in every buffer (`V`: the launch contents after the host operations), shows
  the argument arrays are among the buffers those operations do not write, and proves the body's triple: on whole
  staging buffers at any contents the body terminates, leaves its six input buffers as they were and the output
  buffer at ONE pure function (`outBlk`) of the inputs' contents.
-/
import proofs.«117304_g23605140259235_cont_8to1_1967_15_alg».proof.Proof.Gen.Kernel.Launch
import proofs.«117304_g23605140259235_cont_8to1_1967_15_alg».proof.Proof.Gen.Kernel.Skeleton
import proofs.«117304_g23605140259235_cont_8to1_1967_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the five host operations
    (the transposed weight, the bias as a row, the zero scalar, and the padded feature matrix written). -/
abbrev V (c : Dev nD) (b : Ref sig .tc) : Buf (Elt F) ((c : Thread nD τ).loc b) := StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (h : ∀ op ∈ (hostOps0 : List (HloOp τ sig (Elt F))), Proc.devRef .tc b ∉ op.writes) : V m c b = m ((c : Thread nD τ).loc b) :=
  StableHlo.after_of_forall_not_mem (b := Proc.devRef .tc b) _ _ h

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The first 10000 rows of the padded feature buffer: the feature matrix itself. -/
abbrev rFeat : Rect S10240x128 := Rect.unit (s := S10240x128) ![0, 0] S10000x128.size inb_S10240x128_S10000x128_0_0
/-- A whole adjacency strip. -/
abbrev rStrip : Rect S256x10000 := Rect.unit (s := S256x10000) ![0, 0] S256x10000.size inb_S256x10000_S256x10000_0_0
/-- The 512 rows of the padded feature buffer that belong to the point's own nodes: rows 512·i … 512·i + 511. -/
abbrev rOwn (i : grid0.Coords) : Rect S10240x128 := Rect.unit (s := S10240x128) (k0_off1 i) S512x128.size (k0_off1_inb i)
/-- The whole degree block, weight, bias row and output block. -/
abbrev rDeg : Rect S512x1 := Rect.unit (s := S512x1) ![0, 0] S512x1.size inb_S512x1_S512x1_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S512x128 := Rect.unit (s := S512x128) ![0, 0] S512x128.size inb_S512x128_S512x128_0_0

/-- What the body's one store leaves in the output buffer, as a function of the six input buffers' contents: the
    payload of the loaded pieces, written over the whole buffer. -/
def outBlk (i : grid0.Coords) (x0 x1 : Vec F S256x10000 .f32) (x2 : Vec F S10240x128 .f32) (x3 : Vec F S512x1 .f32)
    (x4 : Vec F S128x128 .f32) (x5 : Vec F S1x128 .f32) : Vec F S512x128 .f32 :=
  View.canon [⟨rOut, k0_pay1 (View.ld x2 rFeat) (View.ld x0 rStrip) (View.ld x1 rStrip) (View.ld x2 (rOwn i)) (View.ld x3 rDeg) (View.ld x4 rWt) (View.ld x5 rBias)⟩]

/-- The one store covers the output buffer. -/
theorem coverOut (p0 : Vec F S512x128 .f32) (y : S512x128.Idx) :
    ∃ pc ∈ ([⟨rOut, p0⟩] : List (View.Piece (Elt F) S512x128 .f32)), y ∈ pc.1.set :=
  View.cover_of_tiled [⟨rOut, p0⟩] S512x128.size (by rfl) y

/-! ## The body's triple -/

set_option maxHeartbeats 2000000 in
/-- The body on whole staging memrefs, the six inputs' at contents `x0 … x5` and the output's at anything: it runs to
    the continuation holding the inputs' as they were and the output's at `outBlk` of them. -/
theorem sound_kernel (c : Dev nD) (E : Set ℕ) (i : grid0.Coords)
    (arg1 : Memref sig .tc .vmem S256x10000 .f32) (harg1 : arg1.IsWhole) (arg2 : Memref sig .tc .vmem S256x10000 .f32) (harg2 : arg2.IsWhole)
    (arg3 : Memref sig .tc .vmem S10240x128 .f32) (harg3 : arg3.IsWhole) (arg4 : Memref sig .tc .vmem S512x1 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S512x128 .f32) (harg7 : arg7.IsWhole)
    (x0 x1 : Vec F S256x10000 .f32) (x2 : Vec F S10240x128 .f32) (x3 : Vec F S512x1 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk i x0 x1 x2 x3 x4 x5)) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

end Cert.Kernel.Hand

end
-- ==== Proof.FrameRunK.lean ====
/-
  The kernel's frame, second part: the proof data, the body at every grid point, and the run.

  The adjacency matrix is read through TWO windows (the even and the odd strip of each point), so its one buffer is
  held by them at the two halves of the full share; every other array is held whole. After the body each input buffer
  holds what it held (its block, filled out past the array's end with whatever was there), and the output buffer a block
  `out c t` that this module leaves as a parameter: the frame claims forget what the output holds, the value claim
  names it.

  The run is stated once, for any family `fgt` of forgotten windows: every weakly fair execution of the program
  terminates, every array a window stages ends at contents the proof data allows (for a window not forgotten: exactly
  the contents it names), and every other unscoped buffer ends as the region found it.
-/
import proofs.«117304_g23605140259235_cont_8to1_1967_15_alg».proof.Proof.FrameBaseK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out : Dev nD → Fin cfg0.N → Vec F S512x128 .f32)

/-! ## The proof data -/

/-- The proof data of the pipeline on core `c`: the arrays as the region finds them; after the body each input
    buffer at its block (filled out with the zero word past the array's end, where nothing is stated) and the output
    buffer at `out c t`; the adjacency buffer shared in halves by its two windows. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => win0_3.fill (grid0.coords t) (fun _ => Scalar.ofBits .f32 0#32) (iblk m c 3 t)
    | ⟨4, _⟩ => iblk m c 4 t
    | ⟨5, _⟩ => iblk m c 5 t
    | ⟨6, _⟩ => out c t
  Φ _ := Pipeline.ΦA spec0 c
  q := fun | 0 => fullShare.left | 1 => fullShare.right | 2 => fullShare | 3 => fullShare | 4 => fullShare | 5 => fullShare | 6 => fullShare | ⟨_ + 7, h⟩ => absurd h (Nat.not_lt.2 (Nat.le_add_left _ _))
  owed _ := 0

theorem A_eq (c : Dev nD) (w : Fin cfg0.W) : (dats m out 0 c).A w = V m c (Pipeline.arrRef spec0 w) := by
  dsimp only [dats]

theorem after0 (c : Dev nD) (t : Fin cfg0.N) : (dats m out 0 c).after 0 t = win0_0.fill (grid0.coords t) (fun _ => Scalar.ofBits .f32 0#32) (iblk m c 0 t) := by dsimp only [dats]
theorem after1 (c : Dev nD) (t : Fin cfg0.N) : (dats m out 0 c).after 1 t = win0_1.fill (grid0.coords t) (fun _ => Scalar.ofBits .f32 0#32) (iblk m c 1 t) := by dsimp only [dats]
theorem after2 (c : Dev nD) (t : Fin cfg0.N) : (dats m out 0 c).after 2 t = iblk m c 2 t := by dsimp only [dats]
theorem after3 (c : Dev nD) (t : Fin cfg0.N) : (dats m out 0 c).after 3 t = win0_3.fill (grid0.coords t) (fun _ => Scalar.ofBits .f32 0#32) (iblk m c 3 t) := by dsimp only [dats]
theorem after4 (c : Dev nD) (t : Fin cfg0.N) : (dats m out 0 c).after 4 t = iblk m c 4 t := by dsimp only [dats]
theorem after5 (c : Dev nD) (t : Fin cfg0.N) : (dats m out 0 c).after 5 t = iblk m c 5 t := by dsimp only [dats]
theorem after6 (c : Dev nD) (t : Fin cfg0.N) : (dats m out 0 c).after 6 t = out c t := by dsimp only [dats]

/-! ## What the body finds in each input buffer -/

/-- The strips and the degree block are fetched at every point: the buffer holds the block on the rows inside the
    array and `d` past its end. -/
theorem before0 (c : Dev nD) (t : Fin cfg0.N) (d) :
    (dats m out 0 c).before 0 t d = win0_0.fill (grid0.coords t) d (iblk m c 0 t) := by
  unfold Dat.before; rw [if_pos (fetch0_0 t)]; rfl
theorem before1 (c : Dev nD) (t : Fin cfg0.N) (d) :
    (dats m out 0 c).before 1 t d = win0_1.fill (grid0.coords t) d (iblk m c 1 t) := by
  unfold Dat.before; rw [if_pos (fetch0_1 t)]; rfl
theorem before3 (c : Dev nD) (t : Fin cfg0.N) (d) :
    (dats m out 0 c).before 3 t d = win0_3.fill (grid0.coords t) d (iblk m c 3 t) := by
  unfold Dat.before; rw [if_pos (fetch0_3 t)]; rfl

/-- The padded features, the transposed weight and the bias row are fetched once; their block never moves and the
    body leaves it in place, so the buffer holds it at every point. -/
theorem before2 (c : Dev nD) (t : Fin cfg0.N) (d) : (dats m out 0 c).before 2 t d = iblk m c 2 t :=
  ((dats m out 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before4 (c : Dev nD) (t : Fin cfg0.N) (d) : (dats m out 0 c).before 4 t d = iblk m c 4 t :=
  ((dats m out 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m out 0 c).before 5 t d = iblk m c 5 t :=
  ((dats m out 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

/-- The output window alone forgotten. -/
abbrev fgtOut : Fin 7 → Bool := fun | 0 => false | 1 => false | 2 => false | 3 => false | 4 => false | 5 => false | 6 => true | ⟨_ + 7, h⟩ => absurd h (Nat.not_lt.2 (Nat.le_add_left _ _))

/-- What the output buffer holds after the body at point `t` when the clipped input buffers hold their blocks filled
    out with `d0`, `d1`, `d3`. -/
abbrev outAt (c : Dev nD) (t : Fin cfg0.N) (d0 d1 : Vec F S256x10000 .f32) (d3 : Vec F S512x1 .f32) : Vec F S512x128 .f32 :=
  outBlk (grid0.coords t) (win0_0.fill (grid0.coords t) d0 (iblk m c 0 t)) (win0_1.fill (grid0.coords t) d1 (iblk m c 1 t)) (iblk m c 2 t)
    (win0_3.fill (grid0.coords t) d3 (iblk m c 3 t)) (iblk m c 4 t) (iblk m c 5 t)

/-- The body obligation with the output forgotten: the six input buffers come back as found. -/
theorem body_forget (c : Dev nD) : BodyObligationLoose (dats m out 0 c) (defs₀ (F := F)) Variants.none () Set.univ fgtOut := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X6, H6⟩⟩
  rw [before0 m out c t d0, before1 m out c t d1, before2 m out c t d2, before3 m out c t d3, before4 m out c t d4, before5 m out c t d5]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (win0_0.fill (grid0.coords t) d0 (iblk m c 0 t)) (win0_1.fill (grid0.coords t) d1 (iblk m c 1 t)) (iblk m c 2 t)
    (win0_3.fill (grid0.coords t) d3 (iblk m c 3 t)) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; rw [after0, win0_0.cut_fill]; iexact H0
  isplitl [H1]
  · iexists d1; rw [after1, win0_1.cut_fill]; iexact H1
  isplitl [H2]
  · rw [after2]; iexact H2
  isplitl [H3]
  · iexists d3; rw [after3, win0_3.cut_fill]; iexact H3
  isplitl [H4]
  · rw [after4]; iexact H4
  isplitl [H5]
  · rw [after5]; iexact H5
  · iexists _; iexact H6

/-- The body obligation with nothing forgotten, when `out c t` is, on the rows inside the array, what the body stores
    whatever fills the clipped input buffers past the arrays' end. -/
theorem body_exact (c : Dev nD)
    (hout : ∀ t d0 d1 d3, win0_6.cut (grid0.coords t) (outAt m c t d0 d1 d3) = win0_6.cut (grid0.coords t) (out c t)) :
    BodyObligationLoose (dats m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0 m out c t d0, before1 m out c t d1, before2 m out c t d2, before3 m out c t d3, before4 m out c t d4, before5 m out c t d5]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (win0_0.fill (grid0.coords t) d0 (iblk m c 0 t)) (win0_1.fill (grid0.coords t) d1 (iblk m c 1 t)) (iblk m c 2 t)
    (win0_3.fill (grid0.coords t) d3 (iblk m c 3 t)) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; rw [after0, win0_0.cut_fill]; iexact H0
  isplitl [H1]
  · iexists d1; rw [after1, win0_1.cut_fill]; iexact H1
  isplitl [H2]
  · rw [after2]; iexact H2
  isplitl [H3]
  · iexists d3; rw [after3, win0_3.cut_fill]; iexact H3
  isplitl [H4]
  · rw [after4]; iexact H4
  isplitl [H5]
  · rw [after5]; iexact H5
  · iexists outAt m c t d0 d1 d3
    rw [after6, ← hout t d0 d1 d3, win0_6.fill_cut]; iexact H6

end Cert.Kernel.Hand

end
-- ==== Proof.FrameLaunchK.lean ====
/-
  The kernel's frame, third part: the launch.

  The region's launch hands the pipeline the DISTINCT buffers behind the windows' arrays, each whole at the full share.
  The adjacency buffer serves two windows, so its points-to is split along the share into the two halves the proof data
  names; the other five buffers go to their windows whole. From there the library's launch theorem for relational proof
  data gives the run, and the frame claim is read off its post: the adjacency matrix and the degrees are input arrays
  of windows (never written), the features, weight and bias bypass the region.
-/
import proofs.«117304_g23605140259235_cont_8to1_1967_15_alg».proof.Proof.FrameRunK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out : Dev nD → Fin cfg0.N → Vec F S512x128 .f32)

/-! ## The arrays dealt to the windows -/

/-- The six distinct buffers behind the seven windows' arrays, whole at the full share, are the proof data's arrays at
    entry: the adjacency buffer split in halves between its two windows. -/
theorem hsplit (c : Dev nD) :
    (Pipeline.arrBufs spec0 c (V m c) : sProp 𝕄) ⊢ (dats m out 0 c).arrays ((dats m out 0 c).arrAt · 0) := by
  classical
  unfold Pipeline.arrBufs Dat.arrays
  rw [BI.bigSep_eq_bigSepL_of_eq [main_arg1, main_call0_v2, main_arg2, main_call0_v0, main_call0_v1, main_v0] (by decide) (by decide), bigSep_W0]
  change iprop((((c : Thread nD τ).loc main_arg1) ↦{fullShare} V m c main_arg1) ∗ (((c : Thread nD τ).loc main_call0_v2) ↦{fullShare} V m c main_call0_v2)
      ∗ (((c : Thread nD τ).loc main_arg2) ↦{fullShare} V m c main_arg2) ∗ (((c : Thread nD τ).loc main_call0_v0) ↦{fullShare} V m c main_call0_v0)
      ∗ (((c : Thread nD τ).loc main_call0_v1) ↦{fullShare} V m c main_call0_v1) ∗ (((c : Thread nD τ).loc main_v0) ↦{fullShare} V m c main_v0)) ⊢ _
  rw [(arr_whole0 0).set_eq_univ, (arr_whole0 2).set_eq_univ, (arr_whole0 3).set_eq_univ,
    (arr_whole0 4).set_eq_univ, (arr_whole0 5).set_eq_univ, (arr_whole0 6).set_eq_univ]
  iintro ⟨HA, Hx, Hd, Hw, Hb, Ho⟩
  ihave HA := (pointsTo_share (PosShare.mem_left_op_right fullShare)).1 $$ HA
  icases HA with ⟨HA₁, HA₂⟩
  isplitl [HA₁]; · iexact HA₁
  isplitl [HA₂]; · iexact HA₂
  isplitl [Hx]; · iexact Hx
  isplitl [Hd]; · iexact Hd
  isplitl [Hw]; · iexact Hw
  isplitl [Hb]; · iexact Hb
  iexact Ho

/-! ## The run -/

set_option backward.isDefEq.respectTransparency.types false in
/-- For any family `fgt` of forgotten windows and a body obligation at it: every weakly fair execution of the program
    terminates; every window's array ends at contents the proof data allows; every other unscoped buffer ends as the
    region found it. -/
theorem run_main (fgt : Fin 7 → Bool)
    (hbody : ∀ c, BodyObligationLoose (dats m out 0 c) (defs₀ (F := F)) Variants.none () Set.univ fgt) :
    θ_run defs (onTc (τ := τ) (main (F := F))) (s₀ m ρ) (fun r => ∀ c : Dev nD,
      (∀ w, ((dats m out 0 c).toRForget fgt).ArrAt w cfg0.N (r.2.mem ((spec0 w).arr.view.loc (c.tc : Thread nD τ))))
      ∧ ∀ b ∈ Pipeline.restRefs sig spec0, r.2.mem ((c.tc : Thread nD τ).loc b) = V m c b) := by
  classical
  exact Pipeline.RDat.θ_run_region_pf (pcfgs (F := F)) (fun q => (cfgs q).toPCfg_adm) (fun _ c => (dats m out 0 c).toRForget fgt) ()
    cellOf_inj (0 : Fin 1) winFacts₀0 (Pipeline.OwnSemFacts.none spec0) (Pipeline.PreFacts.none _) emb₁ defs₀ Variants.none m ρ main
    (fun c => (hbody c).toRForget)
    block_pos0 arr_whole0 stage_whole0 (fun c t => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m out c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w, Pipeline.rest_of_restP Pipeline.Prefetch.none spec0 (fun k => k.elim0) c (V m c) s (fun k => k.elim0) (h c).2.1 (h c).2.2⟩)

/-! ## The frame -/

/-- The frame run forgets what the output holds; any block serves as the proof data's name for it. -/
abbrev zout : Dev nD → Fin cfg0.N → Vec F S512x128 .f32 := fun _ _ _ => Scalar.ofBits .f32 0#32

/-- Reading an input window's array off the run's post: it ends at its entry contents. -/
theorem arr_in_of_post (fgt : Fin 7 → Bool) (c : Dev nD) (w : Fin 7) (hw : fgt w = false) (hin : (cfg0.win w).isOut = false)
    (X : Buf (Elt F) ((cfg0.win w).arr.view.loc (c.tc : Thread nD τ)))
    (h : ((dats m out 0 c).toRForget fgt).ArrAt w cfg0.N X) : X = V m c (Pipeline.arrRef spec0 w) :=
  (((dats m out 0 c).toRForget_arrAt_iff hw _ _).mp h).trans (((dats m out 0 c).arrAt_in w hin _).trans (A_eq m out c w))

/-- THE FRAME: for any float values, from any memory with zero counters, every weakly fair execution of the program
    terminates without a fault and the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h c).2 main_arg0 (Pipeline.mem_restRefs_of main_arg0 (by decide) (by decide))).trans (V_main_arg0 m c),
      (arr_in_of_post m zout fgtOut c 0 rfl rfl _ ((h c).1 0)).trans (V_main_arg1 m c),
      (arr_in_of_post m zout fgtOut c 3 rfl rfl _ ((h c).1 3)).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ zout fgtOut (body_forget m zout))

/-- info: 'Cert.Kernel.Hand.frame' depends on axioms: [propext, Classical.choice, Quot.sound] -/
#guard_msgs in #print axioms frame

end Cert.Kernel.Hand

end
-- ==== Proof.FrameBase.lean ====
/-
  The kernel's frame, first part: the program up to its one region, and the body.

  The program pads the feature matrix with 240 zero rows, transposes the weight and reshapes the bias on the host, and
  then runs one pipelined region over a grid of twenty points. At point `i` the body reads two adjacent strips of 256
  adjacency rows each (rows 512·i … 512·i + 511 of the adjacency matrix: two windows on ONE array), the whole padded feature
  matrix, the block of 512 reciprocal-degree denominators, the transposed weight and the bias row, and stores ONE block
  of 512 output rows. The last point's blocks reach past row 9999; what is staged there past the arrays' end is not named.

  This module states what the region finds in every buffer (`V`: the launch contents after the host operations), shows
  the argument arrays are among the buffers those operations do not write, and proves the body's triple: on whole
  staging buffers at any contents the body terminates, leaves its six input buffers as they were and the output
  buffer at ONE pure function (`outBlk`) of the inputs' contents.
-/
import proofs.«117304_g23605140259235_cont_8to1_1967_15_alg».proof.Proof.Gen.KernelIdeal.Launch
import proofs.«117304_g23605140259235_cont_8to1_1967_15_alg».proof.Proof.Gen.KernelIdeal.Skeleton
import proofs.«117304_g23605140259235_cont_8to1_1967_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the five host operations
    (the transposed weight, the bias as a row, the zero scalar, and the padded feature matrix written). -/
abbrev V (c : Dev nD) (b : Ref sig .tc) : Buf (Elt F) ((c : Thread nD τ).loc b) := StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_not_written (c : Dev nD) (b : Ref sig .tc)
    (h : ∀ op ∈ (hostOps0 : List (HloOp τ sig (Elt F))), Proc.devRef .tc b ∉ op.writes) : V m c b = m ((c : Thread nD τ).loc b) :=
  StableHlo.after_of_forall_not_mem (b := Proc.devRef .tc b) _ _ h

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The first 10000 rows of the padded feature buffer: the feature matrix itself. -/
abbrev rFeat : Rect S10240x128 := Rect.unit (s := S10240x128) ![0, 0] S10000x128.size inb_S10240x128_S10000x128_0_0
/-- A whole adjacency strip. -/
abbrev rStrip : Rect S256x10000 := Rect.unit (s := S256x10000) ![0, 0] S256x10000.size inb_S256x10000_S256x10000_0_0
/-- The 512 rows of the padded feature buffer that belong to the point's own nodes: rows 512·i … 512·i + 511. -/
abbrev rOwn (i : grid0.Coords) : Rect S10240x128 := Rect.unit (s := S10240x128) (k0_off1 i) S512x128.size (k0_off1_inb i)
/-- The whole degree block, weight, bias row and output block. -/
abbrev rDeg : Rect S512x1 := Rect.unit (s := S512x1) ![0, 0] S512x1.size inb_S512x1_S512x1_0_0
abbrev rWt : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S512x128 := Rect.unit (s := S512x128) ![0, 0] S512x128.size inb_S512x128_S512x128_0_0

/-- What the body's one store leaves in the output buffer, as a function of the six input buffers' contents: the
    payload of the loaded pieces, written over the whole buffer. -/
def outBlk (i : grid0.Coords) (x0 x1 : Vec F S256x10000 .f32) (x2 : Vec F S10240x128 .f32) (x3 : Vec F S512x1 .f32)
    (x4 : Vec F S128x128 .f32) (x5 : Vec F S1x128 .f32) : Vec F S512x128 .f32 :=
  View.canon [⟨rOut, k0_pay1 (View.ld x2 rFeat) (View.ld x0 rStrip) (View.ld x1 rStrip) (View.ld x2 (rOwn i)) (View.ld x3 rDeg) (View.ld x4 rWt) (View.ld x5 rBias)⟩]

/-- The one store covers the output buffer. -/
theorem coverOut (p0 : Vec F S512x128 .f32) (y : S512x128.Idx) :
    ∃ pc ∈ ([⟨rOut, p0⟩] : List (View.Piece (Elt F) S512x128 .f32)), y ∈ pc.1.set :=
  View.cover_of_tiled [⟨rOut, p0⟩] S512x128.size (by rfl) y

/-! ## The body's triple -/

set_option maxHeartbeats 2000000 in
/-- The body on whole staging memrefs, the six inputs' at contents `x0 … x5` and the output's at anything: it runs to
    the continuation holding the inputs' as they were and the output's at `outBlk` of them. -/
theorem sound_kernel (c : Dev nD) (E : Set ℕ) (i : grid0.Coords)
    (arg1 : Memref sig .tc .vmem S256x10000 .f32) (harg1 : arg1.IsWhole) (arg2 : Memref sig .tc .vmem S256x10000 .f32) (harg2 : arg2.IsWhole)
    (arg3 : Memref sig .tc .vmem S10240x128 .f32) (harg3 : arg3.IsWhole) (arg4 : Memref sig .tc .vmem S512x1 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S512x128 .f32) (harg7 : arg7.IsWhole)
    (x0 x1 : Vec F S256x10000 .f32) (x2 : Vec F S10240x128 .f32) (x3 : Vec F S512x1 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk i x0 x1 x2 x3 x4 x5)) -∗ K ⟨⟩))
      ⊢ wp frame (wpE (defs₀ (F := F)) Variants.none c none) E (cc0__gcn_body i arg1 harg1 arg2 harg2 arg3 harg3 arg4 harg4 arg5 harg5 arg6 harg6 arg7 harg7) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

end Cert.KernelIdeal.Hand

end
-- ==== Proof.FrameRun.lean ====
/-
  The kernel's frame, second part: the proof data, the body at every grid point, and the run.

  The adjacency matrix is read through TWO windows (the even and the odd strip of each point), so its one buffer is
  held by them at the two halves of the full share; every other array is held whole. After the body each input buffer
  holds what it held (its block, filled out past the array's end with whatever was there), and the output buffer a block
  `out c t` that this module leaves as a parameter: the frame claims forget what the output holds, the value claim
  names it.

  The run is stated once, for any family `fgt` of forgotten windows: every weakly fair execution of the program
  terminates, every array a window stages ends at contents the proof data allows (for a window not forgotten: exactly
  the contents it names), and every other unscoped buffer ends as the region found it.
-/
import proofs.«117304_g23605140259235_cont_8to1_1967_15_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out : Dev nD → Fin cfg0.N → Vec F S512x128 .f32)

/-! ## The proof data -/

/-- The proof data of the pipeline on core `c`: the arrays as the region finds them; after the body each input
    buffer at its block (filled out with the zero word past the array's end, where nothing is stated) and the output
    buffer at `out c t`; the adjacency buffer shared in halves by its two windows. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => win0_3.fill (grid0.coords t) (fun _ => Scalar.ofBits .f32 0#32) (iblk m c 3 t)
    | ⟨4, _⟩ => iblk m c 4 t
    | ⟨5, _⟩ => iblk m c 5 t
    | ⟨6, _⟩ => out c t
  Φ _ := Pipeline.ΦA spec0 c
  q := fun | 0 => fullShare.left | 1 => fullShare.right | 2 => fullShare | 3 => fullShare | 4 => fullShare | 5 => fullShare | 6 => fullShare | ⟨_ + 7, h⟩ => absurd h (Nat.not_lt.2 (Nat.le_add_left _ _))
  owed _ := 0

theorem A_eq (c : Dev nD) (w : Fin cfg0.W) : (dats m out 0 c).A w = V m c (Pipeline.arrRef spec0 w) := by
  dsimp only [dats]

theorem after0 (c : Dev nD) (t : Fin cfg0.N) : (dats m out 0 c).after 0 t = win0_0.fill (grid0.coords t) (fun _ => Scalar.ofBits .f32 0#32) (iblk m c 0 t) := by dsimp only [dats]
theorem after1 (c : Dev nD) (t : Fin cfg0.N) : (dats m out 0 c).after 1 t = win0_1.fill (grid0.coords t) (fun _ => Scalar.ofBits .f32 0#32) (iblk m c 1 t) := by dsimp only [dats]
theorem after2 (c : Dev nD) (t : Fin cfg0.N) : (dats m out 0 c).after 2 t = iblk m c 2 t := by dsimp only [dats]
theorem after3 (c : Dev nD) (t : Fin cfg0.N) : (dats m out 0 c).after 3 t = win0_3.fill (grid0.coords t) (fun _ => Scalar.ofBits .f32 0#32) (iblk m c 3 t) := by dsimp only [dats]
theorem after4 (c : Dev nD) (t : Fin cfg0.N) : (dats m out 0 c).after 4 t = iblk m c 4 t := by dsimp only [dats]
theorem after5 (c : Dev nD) (t : Fin cfg0.N) : (dats m out 0 c).after 5 t = iblk m c 5 t := by dsimp only [dats]
theorem after6 (c : Dev nD) (t : Fin cfg0.N) : (dats m out 0 c).after 6 t = out c t := by dsimp only [dats]

/-! ## What the body finds in each input buffer -/

/-- The strips and the degree block are fetched at every point: the buffer holds the block on the rows inside the
    array and `d` past its end. -/
theorem before0 (c : Dev nD) (t : Fin cfg0.N) (d) :
    (dats m out 0 c).before 0 t d = win0_0.fill (grid0.coords t) d (iblk m c 0 t) := by
  unfold Dat.before; rw [if_pos (fetch0_0 t)]; rfl
theorem before1 (c : Dev nD) (t : Fin cfg0.N) (d) :
    (dats m out 0 c).before 1 t d = win0_1.fill (grid0.coords t) d (iblk m c 1 t) := by
  unfold Dat.before; rw [if_pos (fetch0_1 t)]; rfl
theorem before3 (c : Dev nD) (t : Fin cfg0.N) (d) :
    (dats m out 0 c).before 3 t d = win0_3.fill (grid0.coords t) d (iblk m c 3 t) := by
  unfold Dat.before; rw [if_pos (fetch0_3 t)]; rfl

/-- The padded features, the transposed weight and the bias row are fetched once; their block never moves and the
    body leaves it in place, so the buffer holds it at every point. -/
theorem before2 (c : Dev nD) (t : Fin cfg0.N) (d) : (dats m out 0 c).before 2 t d = iblk m c 2 t :=
  ((dats m out 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before4 (c : Dev nD) (t : Fin cfg0.N) (d) : (dats m out 0 c).before 4 t d = iblk m c 4 t :=
  ((dats m out 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m out 0 c).before 5 t d = iblk m c 5 t :=
  ((dats m out 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

/-- The output window alone forgotten. -/
abbrev fgtOut : Fin 7 → Bool := fun | 0 => false | 1 => false | 2 => false | 3 => false | 4 => false | 5 => false | 6 => true | ⟨_ + 7, h⟩ => absurd h (Nat.not_lt.2 (Nat.le_add_left _ _))

/-- What the output buffer holds after the body at point `t` when the clipped input buffers hold their blocks filled
    out with `d0`, `d1`, `d3`. -/
abbrev outAt (c : Dev nD) (t : Fin cfg0.N) (d0 d1 : Vec F S256x10000 .f32) (d3 : Vec F S512x1 .f32) : Vec F S512x128 .f32 :=
  outBlk (grid0.coords t) (win0_0.fill (grid0.coords t) d0 (iblk m c 0 t)) (win0_1.fill (grid0.coords t) d1 (iblk m c 1 t)) (iblk m c 2 t)
    (win0_3.fill (grid0.coords t) d3 (iblk m c 3 t)) (iblk m c 4 t) (iblk m c 5 t)

/-- The body obligation with the output forgotten: the six input buffers come back as found. -/
theorem body_forget (c : Dev nD) : BodyObligationLoose (dats m out 0 c) (defs₀ (F := F)) Variants.none () Set.univ fgtOut := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X6, H6⟩⟩
  rw [before0 m out c t d0, before1 m out c t d1, before2 m out c t d2, before3 m out c t d3, before4 m out c t d4, before5 m out c t d5]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (win0_0.fill (grid0.coords t) d0 (iblk m c 0 t)) (win0_1.fill (grid0.coords t) d1 (iblk m c 1 t)) (iblk m c 2 t)
    (win0_3.fill (grid0.coords t) d3 (iblk m c 3 t)) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; rw [after0, win0_0.cut_fill]; iexact H0
  isplitl [H1]
  · iexists d1; rw [after1, win0_1.cut_fill]; iexact H1
  isplitl [H2]
  · rw [after2]; iexact H2
  isplitl [H3]
  · iexists d3; rw [after3, win0_3.cut_fill]; iexact H3
  isplitl [H4]
  · rw [after4]; iexact H4
  isplitl [H5]
  · rw [after5]; iexact H5
  · iexists _; iexact H6

/-- The body obligation with nothing forgotten, when `out c t` is, on the rows inside the array, what the body stores
    whatever fills the clipped input buffers past the arrays' end. -/
theorem body_exact (c : Dev nD)
    (hout : ∀ t d0 d1 d3, win0_6.cut (grid0.coords t) (outAt m c t d0 d1 d3) = win0_6.cut (grid0.coords t) (out c t)) :
    BodyObligationLoose (dats m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0 m out c t d0, before1 m out c t d1, before2 m out c t d2, before3 m out c t d3, before4 m out c t d4, before5 m out c t d5]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (win0_0.fill (grid0.coords t) d0 (iblk m c 0 t)) (win0_1.fill (grid0.coords t) d1 (iblk m c 1 t)) (iblk m c 2 t)
    (win0_3.fill (grid0.coords t) d3 (iblk m c 3 t)) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; rw [after0, win0_0.cut_fill]; iexact H0
  isplitl [H1]
  · iexists d1; rw [after1, win0_1.cut_fill]; iexact H1
  isplitl [H2]
  · rw [after2]; iexact H2
  isplitl [H3]
  · iexists d3; rw [after3, win0_3.cut_fill]; iexact H3
  isplitl [H4]
  · rw [after4]; iexact H4
  isplitl [H5]
  · rw [after5]; iexact H5
  · iexists outAt m c t d0 d1 d3
    rw [after6, ← hout t d0 d1 d3, win0_6.fill_cut]; iexact H6

end Cert.KernelIdeal.Hand

end
-- ==== Proof.FrameLaunch.lean ====
/-
  The kernel's frame, third part: the launch.

  The region's launch hands the pipeline the DISTINCT buffers behind the windows' arrays, each whole at the full share.
  The adjacency buffer serves two windows, so its points-to is split along the share into the two halves the proof data
  names; the other five buffers go to their windows whole. From there the library's launch theorem for relational proof
  data gives the run, and the frame claim is read off its post: the adjacency matrix and the degrees are input arrays
  of windows (never written), the features, weight and bias bypass the region.
-/
import proofs.«117304_g23605140259235_cont_8to1_1967_15_alg».proof.Proof.FrameRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out : Dev nD → Fin cfg0.N → Vec F S512x128 .f32)

/-! ## The arrays dealt to the windows -/

/-- The six distinct buffers behind the seven windows' arrays, whole at the full share, are the proof data's arrays at
    entry: the adjacency buffer split in halves between its two windows. -/
theorem hsplit (c : Dev nD) :
    (Pipeline.arrBufs spec0 c (V m c) : sProp 𝕄) ⊢ (dats m out 0 c).arrays ((dats m out 0 c).arrAt · 0) := by
  classical
  unfold Pipeline.arrBufs Dat.arrays
  rw [BI.bigSep_eq_bigSepL_of_eq [main_arg1, main_call0_v2, main_arg2, main_call0_v0, main_call0_v1, main_v0] (by decide) (by decide), bigSep_W0]
  change iprop((((c : Thread nD τ).loc main_arg1) ↦{fullShare} V m c main_arg1) ∗ (((c : Thread nD τ).loc main_call0_v2) ↦{fullShare} V m c main_call0_v2)
      ∗ (((c : Thread nD τ).loc main_arg2) ↦{fullShare} V m c main_arg2) ∗ (((c : Thread nD τ).loc main_call0_v0) ↦{fullShare} V m c main_call0_v0)
      ∗ (((c : Thread nD τ).loc main_call0_v1) ↦{fullShare} V m c main_call0_v1) ∗ (((c : Thread nD τ).loc main_v0) ↦{fullShare} V m c main_v0)) ⊢ _
  rw [(arr_whole0 0).set_eq_univ, (arr_whole0 2).set_eq_univ, (arr_whole0 3).set_eq_univ,
    (arr_whole0 4).set_eq_univ, (arr_whole0 5).set_eq_univ, (arr_whole0 6).set_eq_univ]
  iintro ⟨HA, Hx, Hd, Hw, Hb, Ho⟩
  ihave HA := (pointsTo_share (PosShare.mem_left_op_right fullShare)).1 $$ HA
  icases HA with ⟨HA₁, HA₂⟩
  isplitl [HA₁]; · iexact HA₁
  isplitl [HA₂]; · iexact HA₂
  isplitl [Hx]; · iexact Hx
  isplitl [Hd]; · iexact Hd
  isplitl [Hw]; · iexact Hw
  isplitl [Hb]; · iexact Hb
  iexact Ho

/-! ## The run -/

set_option backward.isDefEq.respectTransparency.types false in
/-- For any family `fgt` of forgotten windows and a body obligation at it: every weakly fair execution of the program
    terminates; every window's array ends at contents the proof data allows; every other unscoped buffer ends as the
    region found it. -/
theorem run_main (fgt : Fin 7 → Bool)
    (hbody : ∀ c, BodyObligationLoose (dats m out 0 c) (defs₀ (F := F)) Variants.none () Set.univ fgt) :
    θ_run defs (onTc (τ := τ) (main (F := F))) (s₀ m ρ) (fun r => ∀ c : Dev nD,
      (∀ w, ((dats m out 0 c).toRForget fgt).ArrAt w cfg0.N (r.2.mem ((spec0 w).arr.view.loc (c.tc : Thread nD τ))))
      ∧ ∀ b ∈ Pipeline.restRefs sig spec0, r.2.mem ((c.tc : Thread nD τ).loc b) = V m c b) := by
  classical
  exact Pipeline.RDat.θ_run_region_pf (pcfgs (F := F)) (fun q => (cfgs q).toPCfg_adm) (fun _ c => (dats m out 0 c).toRForget fgt) ()
    cellOf_inj (0 : Fin 1) winFacts₀0 (Pipeline.OwnSemFacts.none spec0) (Pipeline.PreFacts.none _) emb₁ defs₀ Variants.none m ρ main
    (fun c => (hbody c).toRForget)
    block_pos0 arr_whole0 stage_whole0 (fun c t => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m out c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w, Pipeline.rest_of_restP Pipeline.Prefetch.none spec0 (fun k => k.elim0) c (V m c) s (fun k => k.elim0) (h c).2.1 (h c).2.2⟩)

/-! ## The frame -/

/-- The frame run forgets what the output holds; any block serves as the proof data's name for it. -/
abbrev zout : Dev nD → Fin cfg0.N → Vec F S512x128 .f32 := fun _ _ _ => Scalar.ofBits .f32 0#32

/-- Reading an input window's array off the run's post: it ends at its entry contents. -/
theorem arr_in_of_post (fgt : Fin 7 → Bool) (c : Dev nD) (w : Fin 7) (hw : fgt w = false) (hin : (cfg0.win w).isOut = false)
    (X : Buf (Elt F) ((cfg0.win w).arr.view.loc (c.tc : Thread nD τ)))
    (h : ((dats m out 0 c).toRForget fgt).ArrAt w cfg0.N X) : X = V m c (Pipeline.arrRef spec0 w) :=
  (((dats m out 0 c).toRForget_arrAt_iff hw _ _).mp h).trans (((dats m out 0 c).arrAt_in w hin _).trans (A_eq m out c w))

/-- THE FRAME: for any float values, from any memory with zero counters, every weakly fair execution of the program
    terminates without a fault and the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h c).2 main_arg0 (Pipeline.mem_restRefs_of main_arg0 (by decide) (by decide))).trans (V_main_arg0 m c),
      (arr_in_of_post m zout fgtOut c 0 rfl rfl _ ((h c).1 0)).trans (V_main_arg1 m c),
      (arr_in_of_post m zout fgtOut c 3 rfl rfl _ ((h c).1 3)).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ zout fgtOut (body_forget m zout))

/-- info: 'Cert.KernelIdeal.Hand.frame' depends on axioms: [propext, Classical.choice, Quot.sound] -/
#guard_msgs in #print axioms frame

end Cert.KernelIdeal.Hand

end
-- ==== Proof.ValueOut.lean ====
/-
  The result array, from the blocks the twenty grid points write back.

  Point `t` writes back the rows of its 512-row block that lie inside the array: rows 512·t … 512·t + 511 for the first
  nineteen points, rows 9728 … 9999 for the last. What it writes is, on those rows, the layer of the argument arrays
  (`outLayer`: the layer's rows 512·t …, and zero on the last block's rows past the array, which are never written
  back). Every row below 10000 lies in the block of the point `row / 512`, so the result array ends at the layer.
-/
import proofs.«117304_g23605140259235_cont_8to1_1967_15_alg».proof.Proof.FrameRun
import proofs.«117304_g23605140259235_cont_8to1_1967_15_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The layer of core `c`'s five argument arrays. -/
abbrev lay (c : Dev nD) : Cert.GcnSpec.Mat 10000 128 :=
  Cert.GcnSpec.layer (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- What point `t` leaves in the output buffer, named on the rows inside the array: the layer's rows 512·t …. -/
def outLayer (c : Dev nD) (t : Fin cfg0.N) : Vec Ideal S512x128 .f32 := fun j =>
  if h : 512 * t.val + (j 0).val < 10000 then lay m c (ix2 ⟨512 * t.val + (j 0).val, h⟩ (j 1)) else 0

/-- The output window's index map, decided over the grid: block `t` starts at row 512·t and column 0, and its part
    inside the array has min(512, 10000 − 512·t) rows and all 128 columns. -/
theorem idx6 : ∀ t : Fin cfg0.N, win0_6.index t 0 = t.val ∧ win0_6.index t 1 = 0
    ∧ win0_6.xsize (grid0.coords t) 0 = min 512 (10000 - 512 * t.val) ∧ win0_6.xsize (grid0.coords t) 1 = 128 :=
  (by decide +kernel : ∀ t : Fin grid0.N, win0_6.index t 0 = t.val ∧ win0_6.index t 1 = 0
    ∧ win0_6.xsize (grid0.coords t) 0 = min 512 (10000 - 512 * t.val) ∧ win0_6.xsize (grid0.coords t) 1 = 128)

end Cert.KernelIdeal.HandValue

end
-- ==== Proof.ValueFinal.lean ====
/-
  The result array is the layer: the write-back of every grid point is the layer read through the point's block, and the
  twenty blocks cover the rows 0 … 9999.
-/
import proofs.«117304_g23605140259235_cont_8to1_1967_15_alg».proof.Proof.ValueOut

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- What point `t` writes back — the rows of `outLayer` inside the array — is the layer read through block `t`:
    row `y` of the block is row 512·t + y of the array. -/
theorem flushed6 (c : Dev nD) (t : Fin cfg0.N) :
    (dats m (outLayer m) 0 c).flushed 6 t = ((cfg0.win 6).blk t).view.read (Elt Ideal) (lay m c) := by
  show win0_6.cut (grid0.coords t) ((dats m (outLayer m) 0 c).after 6 t) = _
  rw [after6]
  funext y
  obtain ⟨h0, h1, hx0, hx1⟩ := idx6 t
  have hy0 : (y 0).val < win0_6.xsize (grid0.coords t) 0 := (y 0).isLt
  have hrow : 512 * t.val + (y 0).val < 10000 := by rw [hx0] at hy0; omega
  rw [View.read_apply]
  show outLayer m c t (win0_6.xinj (grid0.coords t) y) = _
  unfold outLayer
  rw [dif_pos (show 512 * t.val + ((win0_6.xinj (grid0.coords t) y) 0).val < 10000 from hrow)]
  show lay m c _ = lay m c (((cfg0.win 6).blk t).view.emb y)
  refine congrArg (lay m c) (funext fun a => Fin.ext ?_)
  match a with
  | ⟨0, _⟩ =>
    show 512 * t.val + (y 0).val = win0_6.index t 0 * 512 + 1 * (y 0).val
    rw [h0]; omega
  | ⟨1, _⟩ =>
    show (y 1).val = win0_6.index t 1 * 128 + 1 * (y 1).val
    rw [h1]; omega

/-- An index of the result array lies in block `t` iff each coordinate lies between the block's start and the end of
    its part inside the array. -/
theorem mem_blk6 (t : Fin cfg0.N) (i : S10000x128.Idx) :
    i ∈ ((cfg0.win 6).blk t).view.set ↔ ∀ a, win0_6.index t a * win0_6.size a ≤ (i a).val ∧ (i a).val < win0_6.index t a * win0_6.size a + win0_6.xsize (grid0.coords t) a := by
  show i ∈ ((View.whole main_v0).slice (win0_6.rect t)).set ↔ _
  rw [View.set_slice_whole, Rect.mem_set_unit]

/-- Every index of the result array lies in the block of the point `row / 512`, which writes back. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  refine ⟨⟨(i 0).val / 512, by show (i 0).val / 512 < 20; omega⟩, flush0_6 _, ?_⟩
  rw [mem_blk6]
  obtain ⟨h0, h1, hx0, hx1⟩ := idx6 ⟨(i 0).val / 512, by show (i 0).val / 512 < 20; omega⟩
  intro a
  match a with
  | ⟨0, _⟩ =>
    show win0_6.index _ 0 * 512 ≤ (i 0).val ∧ (i 0).val < win0_6.index _ 0 * 512 + win0_6.xsize _ 0
    rw [h0, hx0]; show (i 0).val / 512 * 512 ≤ (i 0).val ∧ (i 0).val < (i 0).val / 512 * 512 + min 512 (10000 - 512 * ((i 0).val / 512)); omega
  | ⟨1, _⟩ =>
    show win0_6.index _ 1 * 128 ≤ (i 1).val ∧ (i 1).val < win0_6.index _ 1 * 128 + win0_6.xsize _ 1
    rw [h1, hx1]; omega

/-- The result array after the run: the layer of the argument arrays. -/
theorem final (c : Dev nD) : (dats m (outLayer m) 0 c).arrAt 6 cfg0.N = lay m c :=
  (dats m (outLayer m) 0 c).arrAt_eq_of_cover 6 (lay m c) (fun t _ => flushed6 m c t) (cover6 c)

end Cert.KernelIdeal.HandValue

end
-- ==== Proof.PayloadAt.lean ====
/-
  The block the kernel body stores at one grid point, read at one index, over the extended reals.

  The body multiplies two strips of 256 adjacency rows by the feature matrix (two contractions over the 10000 nodes, each
  accumulated from zero), stacks the two products into 512 rows, adds the block's own feature rows (the self-loop),
  scales row `p` by the reciprocal of its degree, adds the feature rows once more (the residual term), multiplies by the
  transposed weight matrix (a contraction over the 128 features, accumulated from zero), adds the bias row, and
  rectifies. Read at row `p` and output feature `o` this is
      max (∑ⱼ ((1 / deg p) · (∑ₖ strip p k · x k j + xb p j) + xb p j) · Wt j o + b o) 0,
  where row `p` of the stacked strips is row `p` of the first strip below 256 and row `p - 256` of the second from
  256 on. The second theorem names the loaded blocks as blocks of the five argument arrays and identifies the element
  with the specified layer's output at the node the block's row stands for.
-/
import proofs.«117304_g23605140259235_cont_8to1_1967_15_alg».proof.Proof.Gen.KernelIdeal.Skeleton
import proofs.«117304_g23605140259235_cont_8to1_1967_15_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## The two float literals -/

/-- The binary32 pattern of `1.0` denotes the real number one. -/
theorem ofBits_one : Ideal.ofBits .f32 0x3F800000#32 = 1 := by
  simp [Ideal.ofBits, Ideal.ieee, -EReal.coe_mul]; norm_num

/-! ## A column broadcast along the rows -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions read at an index -/

/-- The left operand's row coordinate under the contraction is the output's row coordinate. -/
theorem strip_lhs_0 (i : S256x128.Idx) (q : dot_S256x10000_S10000x128_S256x128_1_0_0_1_n_n.contr.Idx) :
    (dot_S256x10000_S10000x128_S256x128_1_0_0_1_n_n.lhsIdx i q 0).val = (i 0).val := by
  unfold DotDims.lhsIdx
  rw [dif_neg (show ¬(0 : Fin S256x10000.rank) ∈ dot_S256x10000_S10000x128_S256x128_1_0_0_1_n_n.lhsBatch by decide),
    dif_pos (show (0 : Fin S256x10000.rank) ∈ dot_S256x10000_S10000x128_S256x128_1_0_0_1_n_n.lhsNonContracting by decide)]
  rfl
/-- The left operand's column coordinate is the contraction coordinate. -/
theorem strip_lhs_1 (i : S256x128.Idx) (q : dot_S256x10000_S10000x128_S256x128_1_0_0_1_n_n.contr.Idx) :
    (dot_S256x10000_S10000x128_S256x128_1_0_0_1_n_n.lhsIdx i q 1).val = (q ⟨0, by decide⟩).val :=
  dot_S256x10000_S10000x128_S256x128_1_0_0_1_n_n.lhsIdx_val_of_single rfl i q
/-- The right operand's row coordinate is the contraction coordinate. -/
theorem strip_rhs_0 (i : S256x128.Idx) (q : dot_S256x10000_S10000x128_S256x128_1_0_0_1_n_n.contr.Idx) :
    (dot_S256x10000_S10000x128_S256x128_1_0_0_1_n_n.rhsIdx i q 0).val = (q ⟨0, by decide⟩).val :=
  dot_S256x10000_S10000x128_S256x128_1_0_0_1_n_n.rhsIdx_val_of_single rfl i q
/-- The right operand's column coordinate is the output's column coordinate. -/
theorem strip_rhs_1 (i : S256x128.Idx) (q : dot_S256x10000_S10000x128_S256x128_1_0_0_1_n_n.contr.Idx) :
    (dot_S256x10000_S10000x128_S256x128_1_0_0_1_n_n.rhsIdx i q 1).val = (i 1).val := by
  unfold DotDims.rhsIdx
  rw [dif_neg (show ¬(1 : Fin S10000x128.rank) ∈ dot_S256x10000_S10000x128_S256x128_1_0_0_1_n_n.rhsBatch by decide),
    dif_pos (show (1 : Fin S10000x128.rank) ∈ dot_S256x10000_S10000x128_S256x128_1_0_0_1_n_n.rhsNonContracting by decide)]
  rfl

/-- A strip of 256 adjacency rows times the feature matrix, accumulated from zero: at `(p, j)` the sum over the nodes
    `k` of the strip's `(p, k)` entry times the features' `(k, j)` entry. The narrowing of both operands' format is
    the identity on extended reals, and the feature matrix passes through a shape cast to its own shape. -/
theorem strip_matmul_apply (a : FVec Ideal S256x10000 .f32) (x : FVec Ideal S10000x128 .f32) (p : Fin 256) (j : Fin 128) :
    matmul (F := Ideal) dot_S256x10000_S10000x128_S256x128_1_0_0_1_n_n none (truncf .bf16 a bitsLt_bf16_f32)
      (truncf .bf16 (shapeCast S10000x128 x shapeCasts_S10000x128_S10000x128) bitsLt_bf16_f32)
      (constant S256x128 .f32 0x00000000#32) (ix2 p j) = ∑ k : Fin 10000, a (ix2 p k) * x (ix2 k j) := by
  simp only [matmul]
  rw [Ideal.matmul_constant_zero_apply, ← Equiv.sum_comp (contrEquiv1 dot_S256x10000_S10000x128_S256x128_1_0_0_1_n_n 10000 rfl rfl).symm]
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx (ix2 p j) ((contrEquiv1 dot_S256x10000_S10000x128_S256x128_1_0_0_1_n_n 10000 rfl rfl).symm k) = ix2 p k :=
    funext fun b => Fin.ext (by
      match b with
      | ⟨0, _⟩ => exact strip_lhs_0 _ _
      | ⟨1, _⟩ => exact (strip_lhs_1 _ _).trans hk)
  have er : dot_S256x10000_S10000x128_S256x128_1_0_0_1_n_n.rhsIdx (ix2 p j) ((contrEquiv1 dot_S256x10000_S10000x128_S256x128_1_0_0_1_n_n 10000 rfl rfl).symm k) = ix2 k j :=
    funext fun b => Fin.ext (by
      match b with
      | ⟨0, _⟩ => exact (strip_rhs_0 _ _).trans hk
      | ⟨1, _⟩ => exact strip_rhs_1 _ _)
  rw [el, er, shapeCast_self]
  rfl

/-- The left operand's row coordinate under the contraction is the output's row coordinate. -/
theorem feat_lhs_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
/-- The left operand's column coordinate is the contraction coordinate. -/
theorem feat_lhs_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
/-- The right operand's row coordinate is the contraction coordinate. -/
theorem feat_rhs_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
/-- The right operand's column coordinate is the output's column coordinate. -/
theorem feat_rhs_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The aggregated features times the transposed weight matrix, accumulated from zero: at `(p, o)` the sum over the
    features `j` of the left operand's `(p, j)` entry times the weight block's `(j, o)` entry (the weight block passes
    through a shape cast to its own shape). -/
theorem feat_matmul_apply (u : FVec Ideal S512x128 .f32) (w : FVec Ideal S128x128 .f32) (p : Fin 512) (o : Fin 128) :
    matmul (F := Ideal) dot_S512x128_S128x128_S512x128_1_0_0_1_n_n none u (shapeCast S128x128 w shapeCasts_S128x128_S128x128)
      (constant S512x128 .f32 0x00000000#32) (ix2 p o) = ∑ j : Fin 128, u (ix2 p j) * w (ix2 j o) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p o) ((contrEquiv1 dot_S512x128_S128x128_S512x128_1_0_0_1_n_n 128 rfl rfl).symm k) = ix2 p k :=
    funext fun b => Fin.ext (by
      match b with
      | ⟨0, _⟩ => exact feat_lhs_0 _ _
      | ⟨1, _⟩ => exact (feat_lhs_1 _ _).trans hk)
  have er : dot_S512x128_S128x128_S512x128_1_0_0_1_n_n.rhsIdx (ix2 p o) ((contrEquiv1 dot_S512x128_S128x128_S512x128_1_0_0_1_n_n 128 rfl rfl).symm k) = ix2 k o :=
    funext fun b => Fin.ext (by
      match b with
      | ⟨0, _⟩ => exact (feat_rhs_0 _ _).trans hk
      | ⟨1, _⟩ => exact feat_rhs_1 _ _)
  rw [el, er, shapeCast_self]

/-! ## The two strips stacked -/

/-- Two blocks of 256 rows stacked: a row below 256 is that row of the first block. -/
theorem stack_apply_lt (a b : FVec Ideal S256x128 .f32) (p : Fin 512) (j : Fin 128) (h : p.val < 256) :
    concatenate S512x128 0 [⟨S256x128, a⟩, ⟨S256x128, b⟩] concatenates_S256x128_S256x128_S512x128_d0 (ix2 p j)
      = a (ix2 ⟨p.val, h⟩ j) := by
  refine concatenate_pair_apply_left (0 : Fin S512x128.rank) a b _ (ix2 p j) rfl (ix2 ⟨p.val, h⟩ j) fun bx => ?_
  match bx with
  | ⟨0, _⟩ => rfl
  | ⟨1, _⟩ => rfl

/-- Two blocks of 256 rows stacked: a row from 256 on is that row, 256 less, of the second block. -/
theorem stack_apply_ge (a b : FVec Ideal S256x128 .f32) (p : Fin 512) (j : Fin 128) (h : 256 ≤ p.val) :
    concatenate S512x128 0 [⟨S256x128, a⟩, ⟨S256x128, b⟩] concatenates_S256x128_S256x128_S512x128_d0 (ix2 p j)
      = b (ix2 ⟨p.val - 256, by have := p.isLt; omega⟩ j) := by
  refine concatenate_pair_apply_right (0 : Fin S512x128.rank) a b _ (ix2 p j) rfl rfl
    (ix2 ⟨p.val - 256, by have := p.isLt; omega⟩ j) (fun bx hb => ?_) ?_
  · match bx with
    | ⟨0, _⟩ => exact absurd rfl hb
    | ⟨1, _⟩ => rfl
  · show p.val - 256 + 256 = p.val
    omega

/-- Entry `(p, k)` of the 512 adjacency rows the body loads as two strips of 256. -/
def strip (v3 v6 : Vec Ideal S256x10000 .f32) (p : Fin 512) (k : Fin 10000) : EReal :=
  if h : p.val < 256 then v3 (ix2 ⟨p.val, h⟩ k) else v6 (ix2 ⟨p.val - 256, by have := p.isLt; omega⟩ k)

/-! ## The aggregated block -/

/-- The 512 × 128 block the weight product takes as its left operand: the stacked strip products plus the block's own
    feature rows, scaled row by row by the reciprocal degree, plus the feature rows once more. -/
def poolBlk (v0 : Vec Ideal S10000x128 .f32) (v3 v6 : Vec Ideal S256x10000 .f32) (v12 : Vec Ideal S512x128 .f32)
    (v14 : Vec Ideal S512x1 .f32) : FVec Ideal S512x128 .f32 :=
  addf
    (mulf
      (broadcastTo S512x128 (divf (broadcast S512x1 (Scalar.ofBits (F := Ideal) .f32 0x3F800000#32)) v14) broadcasts_S512x1_S512x128)
      (addf
        (concatenate S512x128 0
          [⟨S256x128, matmul (F := Ideal) dot_S256x10000_S10000x128_S256x128_1_0_0_1_n_n none (truncf .bf16 v3 bitsLt_bf16_f32)
              (truncf .bf16 (shapeCast S10000x128 v0 shapeCasts_S10000x128_S10000x128) bitsLt_bf16_f32)
              (constant S256x128 .f32 0x00000000#32)⟩,
           ⟨S256x128, matmul (F := Ideal) dot_S256x10000_S10000x128_S256x128_1_0_0_1_n_n none (truncf .bf16 v6 bitsLt_bf16_f32)
              (truncf .bf16 (shapeCast S10000x128 v0 shapeCasts_S10000x128_S10000x128) bitsLt_bf16_f32)
              (constant S256x128 .f32 0x00000000#32)⟩]
          concatenates_S256x128_S256x128_S512x128_d0)
        (shapeCast S512x128 v12 shapeCasts_S512x128_S512x128)))
    (shapeCast S512x128 v12 shapeCasts_S512x128_S512x128)

/-- The aggregated block at `(p, j)`: the reciprocal of row `p`'s degree times (the adjacency row against feature column
    `j`, plus the row's own feature), plus the row's own feature. -/
theorem poolBlk_apply (v0 : Vec Ideal S10000x128 .f32) (v3 v6 : Vec Ideal S256x10000 .f32) (v12 : Vec Ideal S512x128 .f32)
    (v14 : Vec Ideal S512x1 .f32) (p : Fin 512) (j : Fin 128) :
    poolBlk v0 v3 v6 v12 v14 (ix2 p j)
      = Ideal.div 1 (v14 (ix2 p 0)) * ((∑ k : Fin 10000, strip v3 v6 p k * v0 (ix2 k j)) + v12 (ix2 p j)) + v12 (ix2 p j) := by
  unfold poolBlk
  rw [addf_apply, mulf_apply, addf_apply, broadcastTo_a1_ab_apply, divf_apply, broadcast_apply, shapeCast_self v12]
  have h1 : Scalar.ofBits (F := Ideal) .f32 0x3F800000#32 = (1 : EReal) := ofBits_one
  rw [h1]
  by_cases h : p.val < 256
  · rw [stack_apply_lt _ _ p j h, strip_matmul_apply]
    simp only [strip, dif_pos h]
  · rw [stack_apply_ge _ _ p j (Nat.le_of_not_lt h), strip_matmul_apply]
    simp only [strip, dif_neg h]

/-! ## The stored block -/

/-- The stored block is the rectified affine image of the aggregated block: by unfolding. -/
theorem pay_eq (v0 : Vec Ideal S10000x128 .f32) (v3 v6 : Vec Ideal S256x10000 .f32) (v12 : Vec Ideal S512x128 .f32)
    (v14 : Vec Ideal S512x1 .f32) (v21 : Vec Ideal S128x128 .f32) (v24 : Vec Ideal S1x128 .f32) :
    k0_pay1 (F := Ideal) v0 v3 v6 v12 v14 v21 v24 =
      maximumf
        (addf
          (matmul (F := Ideal) (φ₂ := .f32) dot_S512x128_S128x128_S512x128_1_0_0_1_n_n none (poolBlk v0 v3 v6 v12 v14)
            (shapeCast S128x128 v21 shapeCasts_S128x128_S128x128) (constant S512x128 .f32 0x00000000#32))
          (broadcastTo S512x128 (shapeCast S1x128 v24 shapeCasts_S1x128_S1x128 : FVec Ideal S1x128 .f32) broadcasts_S1x128_S512x128))
        (broadcast S512x128 (Scalar.ofBits (F := Ideal) .f32 0x00000000#32)) := rfl

/-- THE STORED BLOCK AT `(p, o)`: the sum over the features of the aggregated block's row `p` against column `o` of
    the loaded weight block, plus the bias row's entry `o`, rectified. -/
theorem pay_apply (v0 : Vec Ideal S10000x128 .f32) (v3 v6 : Vec Ideal S256x10000 .f32) (v12 : Vec Ideal S512x128 .f32)
    (v14 : Vec Ideal S512x1 .f32) (v21 : Vec Ideal S128x128 .f32) (v24 : Vec Ideal S1x128 .f32) (p : Fin 512) (o : Fin 128) :
    k0_pay1 (F := Ideal) v0 v3 v6 v12 v14 v21 v24 (ix2 p o) =
      max ((∑ j : Fin 128,
              (Ideal.div 1 (v14 (ix2 p 0)) * ((∑ k : Fin 10000, strip v3 v6 p k * v0 (ix2 k j)) + v12 (ix2 p j))
                + v12 (ix2 p j)) * v21 (ix2 j o))
            + v24 (ix2 0 o)) 0 := by
  rw [pay_eq, maximumf_apply, addf_apply, feat_matmul_apply, broadcastTo_1b_ab_apply, shapeCast_self, broadcast_apply]
  have h0 : Scalar.ofBits (F := Ideal) .f32 0x00000000#32 = (0 : EReal) := Ideal.ofBits_zero_f32
  rw [h0]
  simp only [poolBlk_apply]

/-! ## The stored block is the specified layer's block -/

open Cert.GcnSpec in
/-- THE STORED BLOCK IS THE LAYER'S: at grid point `i` the body loads the whole feature matrix, rows `512 i …` of the
    adjacency matrix as two strips of 256, rows `512 i …` of the features and of the degrees, the transposed weight
    matrix and the bias row. Given that, the stored element `(p, o)` is the specified layer's output at node
    `512 i + p` and output feature `o`, for every row `p` of the block that stands for a node (`512 i + p < 10000`;
    the hypotheses say nothing about the last block's rows past the array's end, and neither does the conclusion). -/
theorem pay_eq_layer (x : Mat 10000 128) (A : Mat 10000 10000) (deg : Mat 10000 1) (W : Mat 128 128) (b : Row 128)
    (i : Fin 20)
    (v0 : Vec Ideal S10000x128 .f32) (v3 v6 : Vec Ideal S256x10000 .f32) (v12 : Vec Ideal S512x128 .f32)
    (v14 : Vec Ideal S512x1 .f32) (v21 : Vec Ideal S128x128 .f32) (v24 : Vec Ideal S1x128 .f32)
    (h0 : ∀ (k : Fin 10000) (j : Fin 128), v0 (ix2 k j) = x (ix2 k j))
    (h3 : ∀ (p : Fin 256) (k : Fin 10000) (h : 512 * i.val + p.val < 10000),
      v3 (ix2 p k) = A (ix2 ⟨512 * i.val + p.val, h⟩ k))
    (h6 : ∀ (p : Fin 256) (k : Fin 10000) (h : 512 * i.val + 256 + p.val < 10000),
      v6 (ix2 p k) = A (ix2 ⟨512 * i.val + 256 + p.val, h⟩ k))
    (h12 : ∀ (p : Fin 512) (j : Fin 128) (h : 512 * i.val + p.val < 10000),
      v12 (ix2 p j) = x (ix2 ⟨512 * i.val + p.val, h⟩ j))
    (h14 : ∀ (p : Fin 512) (h : 512 * i.val + p.val < 10000),
      v14 (ix2 p 0) = deg (ix2 ⟨512 * i.val + p.val, h⟩ 0))
    (h21 : ∀ (j o : Fin 128), v21 (ix2 j o) = W (ix2 o j))
    (h24 : ∀ o : Fin 128, v24 (ix2 0 o) = b (ix1 o))
    (p : Fin 512) (o : Fin 128) (hp : 512 * i.val + p.val < 10000) :
    k0_pay1 (F := Ideal) v0 v3 v6 v12 v14 v21 v24 (ix2 p o)
      = layer x A deg W b (ix2 ⟨512 * i.val + p.val, hp⟩ o) := by
  -- row `p` of the stacked strips is row `512 i + p` of the adjacency matrix
  have hs : ∀ k : Fin 10000, strip v3 v6 p k = A (ix2 ⟨512 * i.val + p.val, hp⟩ k) := fun k => by
    unfold strip
    split
    · next h => exact h3 ⟨p.val, h⟩ k hp
    · next h =>
      have e : 512 * i.val + 256 + (p.val - 256) = 512 * i.val + p.val := by omega
      rw [h6 ⟨p.val - 256, by have := p.isLt; omega⟩ k (by rw [e]; exact hp)]
      exact congrArg (fun r => A (ix2 r k)) (Fin.ext e)
  rw [pay_apply, h24]
  show _ = max ((∑ j : Fin 128, pool x A deg ⟨512 * i.val + p.val, hp⟩ j * W (ix2 o j)) + b (ix1 o)) 0
  refine congrArg (fun t => max (t + b (ix1 o)) 0) (Finset.sum_congr rfl fun j _ => ?_)
  rw [h21, h12 p j hp, h14 p hp,
    Finset.sum_congr rfl (fun k _ => by rw [hs k, h0 k j] : ∀ k ∈ Finset.univ,
      strip v3 v6 p k * v0 (ix2 k j) = A (ix2 ⟨512 * i.val + p.val, hp⟩ k) * x (ix2 k j))]
  rfl

end Cert.KernelIdeal.PayloadAt

end
-- ==== Proof.ValueBlocks.lean ====
/-
  What the body stores at every grid point is, on the rows that stand for nodes, the specified layer's block.

  At point `t` the body finds, in its seven staging buffers: rows `512 t …` of the adjacency matrix as two strips of 256
  rows (each filled out past the array's end, on the last point, with contents nothing names), the whole feature matrix
  padded with 240 zero rows, the degrees of nodes `512 t …` (filled out likewise), the weight transposed and the bias as a
  row. Each of these is read here at an index as an entry of one of the five argument arrays: the clipped blocks on the
  rows inside their arrays, the padded features on the rows above the padding, the transposed weight with its
  coordinates swapped. With that, the stored element `(p, o)` of a row `512 t + p < 10000` is the layer's output at node
  `512 t + p` and feature `o` whatever fills the buffers past the arrays' end; so the part of the store that is written
  back, the rows inside the output array, is the layer's block.
-/
import proofs.«117304_g23605140259235_cont_8to1_1967_15_alg».proof.Proof.ValueOut
import proofs.«117304_g23605140259235_cont_8to1_1967_15_alg».proof.Proof.PayloadAt
import Idealize.ShloMosaic.Lib.KernelVsHost
import Idealize.ShloMosaic.Lib.ValueLayout

set_option maxRecDepth 16384

noncomputable section

open scoped BigOperators

namespace Cert.KernelIdeal.HandValue

open Cert.KernelIdeal Cert.KernelIdeal.Gen Cert.KernelIdeal.Hand Cert.KernelIdeal.PayloadAt
open Idealize.ShloMosaic Idealize.ShloMosaic.TcCoe Idealize.ShloMosaic.ValueIdx
open Idealize.SL.Sem
open Idealize.ShloMosaic.Pipeline (Dat Cfg Window)

/-! ## The grid, decided -/

/-- The one grid coordinate of point `t` is `t`. -/
theorem coords_val : ∀ t : Fin cfg0.N, ((grid0.coords t) 0).val = t.val := (by decide +kernel : ∀ t : Fin grid0.N, _)

/-- The windows' block indices at point `t`: the two adjacency strips are blocks `2 t` and `2 t + 1` of 256 rows,
    the degree block is block `t` of 512 rows, the other three windows never move. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- How many rows and columns of each clipped block lie inside its array: all of the even strip, the rows of the odd
    strip and of the degree block that are below 10000. -/
theorem xsize_facts : ∀ t : Fin cfg0.N,
    win0_0.xsize (grid0.coords t) (0 : Fin 2) = 256 ∧ win0_0.xsize (grid0.coords t) (1 : Fin 2) = 10000
    ∧ win0_1.xsize (grid0.coords t) (0 : Fin 2) = min 256 (10000 - (512 * t.val + 256)) ∧ win0_1.xsize (grid0.coords t) (1 : Fin 2) = 10000
    ∧ win0_3.xsize (grid0.coords t) (0 : Fin 2) = min 512 (10000 - 512 * t.val) ∧ win0_3.xsize (grid0.coords t) (1 : Fin 2) = 1 :=
  (by decide +kernel : ∀ t : Fin grid0.N, _)

/-- The body's dynamic row offset into the padded features at point `t` is `512 t`. -/
theorem off_facts : ∀ t : Fin cfg0.N, k0_off1 (grid0.coords t) (0 : Fin 2) = 512 * t.val ∧ k0_off1 (grid0.coords t) (1 : Fin 2) = 0 :=
  (by decide +kernel : ∀ t : Fin grid0.N, _)

/-- The grid has twenty points. -/
theorem point_lt_20 (t : Fin cfg0.N) : t.val < 20 := by have := t.isLt; have e : cfg0.N = 20 := N_0; omega

/-- A clipped block filled out past the array's end reads, at an index inside the part that was moved, the moved part. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

variable (m : (ℓ : Loc nD τ sig) → Buf (Elt Ideal) ℓ)

/-! ## The argument arrays, and the buffers the host operations write -/

/-- The five argument arrays on core `c`: features, adjacency, degrees, weight, bias. -/
abbrev argX (c : Dev nD) : Cert.GcnSpec.Mat 10000 128 := m ((c.tc : Thread nD τ).loc main_arg0)
abbrev argA (c : Dev nD) : Cert.GcnSpec.Mat 10000 10000 := m ((c.tc : Thread nD τ).loc main_arg1)
abbrev argDeg (c : Dev nD) : Cert.GcnSpec.Mat 10000 1 := m ((c.tc : Thread nD τ).loc main_arg2)
abbrev argW (c : Dev nD) : Cert.GcnSpec.Mat 128 128 := m ((c.tc : Thread nD τ).loc main_arg3)
abbrev argB (c : Dev nD) : Cert.GcnSpec.Row 128 := m ((c.tc : Thread nD τ).loc main_arg4)

/-- The padded feature buffer as the region finds it: the features with 240 rows of the converted zero below. -/
theorem V_padded (c : Dev nD) : (V m c main_call0_v2 : S10240x128.Idx → EReal) =
    pad S10240x128 ![0, 0] ![240, 0] ![0, 0] (m ((c : Thread nD τ).loc main_arg0))
      (sitofp (F := Ideal) .f32 (constantI S_ 32 0#32)) pads_S10000x128_S10240x128_02400_000 h_S_ := by
  dsimp only [V, hostOps0]; after_results; rfl

/-- The weight buffer as the region finds it: the weight transposed. -/
theorem V_wt (c : Dev nD) : (V m c main_call0_v0 : S128x128.Idx → EReal) =
    transpose S128x128 [1, 0] (m ((c : Thread nD τ).loc main_arg3)) transposes_S128x128_S128x128_1_0 := by
  dsimp only [V, hostOps0]; after_results; rfl

/-- The bias buffer as the region finds it: the bias as one row. -/
theorem V_bias (c : Dev nD) : (V m c main_call0_v1 : S1x128.Idx → EReal) =
    shapeCast S1x128 (m ((c : Thread nD τ).loc main_arg4)) shapeCasts_S128_S1x128 := by
  dsimp only [V, hostOps0]; after_results; rfl

/-- A row of the padded features above row 10000 is that row of the features. -/
theorem padded_at (c : Dev nD) (r : Fin 10240) (j : Fin 128) (h : r.val < 10000) :
    V m c main_call0_v2 (ix2 r j) = argX m c (ix2 ⟨r.val, h⟩ j) :=
  (congrFun (V_padded m c) (ix2 r j)).trans
    (pad_apply_of_inside _ _ _ _ _ _ _ (ix2 r j) (ix2 (⟨r.val, h⟩ : Fin 10000) j) fun a => by
      match a with
      | ⟨0, _⟩ => show r.val = 0 + r.val * (0 + 1); omega
      | ⟨1, _⟩ => show j.val = 0 + j.val * (0 + 1); omega)

/-! ## What the body loads at point `t`, read at an index -/

/-- The whole feature matrix, loaded from the top of the padded buffer. -/
theorem feat_at (c : Dev nD) (t : Fin cfg0.N) (k : Fin 10000) (j : Fin 128) :
    View.ld (iblk m c 2 t) rFeat (ix2 k j) = argX m c (ix2 k j) := by
  obtain ⟨-, -, -, -, e20, e21, -⟩ := idx_facts t
  show V m c main_call0_v2 (((cfg0.win 2).blk t).view.emb (rFeat.idx (ix2 k j))) = _
  have e : ((cfg0.win 2).blk t).view.emb (rFeat.idx (ix2 k j)) = ix2 (⟨k.val, by have := k.isLt; omega⟩ : Fin 10240) j :=
    funext fun a => Fin.ext (by
      match a with
      | ⟨0, _⟩ => show win0_2.index t (0 : Fin 2) * 10240 + 1 * (0 + 1 * k.val) = k.val; omega
      | ⟨1, _⟩ => show win0_2.index t (1 : Fin 2) * 128 + 1 * (0 + 1 * j.val) = j.val; omega)
  rw [e, padded_at m c _ j k.isLt]

/-- The block's own 512 feature rows, loaded from the padded buffer at row `512 t`. -/
theorem own_at (c : Dev nD) (t : Fin cfg0.N) (p : Fin 512) (j : Fin 128) (h : 512 * t.val + p.val < 10000) :
    View.ld (iblk m c 2 t) (rOwn (grid0.coords t)) (ix2 p j) = argX m c (ix2 ⟨512 * t.val + p.val, h⟩ j) := by
  obtain ⟨-, -, -, -, e20, e21, -⟩ := idx_facts t
  obtain ⟨o0, o1⟩ := off_facts t
  show V m c main_call0_v2 (((cfg0.win 2).blk t).view.emb ((rOwn (grid0.coords t)).idx (ix2 p j))) = _
  have e : ((cfg0.win 2).blk t).view.emb ((rOwn (grid0.coords t)).idx (ix2 p j))
      = ix2 (⟨512 * t.val + p.val, by omega⟩ : Fin 10240) j :=
    funext fun a => Fin.ext (by
      match a with
      | ⟨0, _⟩ => show win0_2.index t (0 : Fin 2) * 10240 + 1 * (k0_off1 (grid0.coords t) (0 : Fin 2) + 1 * p.val) = 512 * t.val + p.val; omega
      | ⟨1, _⟩ => show win0_2.index t (1 : Fin 2) * 128 + 1 * (k0_off1 (grid0.coords t) (1 : Fin 2) + 1 * j.val) = j.val; omega)
  rw [e, padded_at m c _ j h]

/-- The even strip: adjacency rows `512 t …`. -/
theorem strip0_at (c : Dev nD) (t : Fin cfg0.N) (d0 : Vec Ideal S256x10000 .f32) (p : Fin 256) (k : Fin 10000)
    (h : 512 * t.val + p.val < 10000) :
    win0_0.fill (grid0.coords t) d0 (iblk m c 0 t) (ix2 p k) = argA m c (ix2 ⟨512 * t.val + p.val, h⟩ k) := by
  obtain ⟨e00, e01, -⟩ := idx_facts t
  obtain ⟨x00, x01, -⟩ := xsize_facts t
  rw [fill_apply_of_lt win0_0 (grid0.coords t) d0 (iblk m c 0 t) (ix2 p k) (fun a => by
    match a with
    | ⟨0, _⟩ => show p.val < win0_0.xsize (grid0.coords t) (0 : Fin 2); have := p.isLt; omega
    | ⟨1, _⟩ => show k.val < win0_0.xsize (grid0.coords t) (1 : Fin 2); have := k.isLt; omega)]
  show V m c main_arg1 (((cfg0.win 0).blk t).view.emb _) = _
  rw [V_main_arg1]
  refine congrArg (m ((c : Thread nD τ).loc main_arg1)) (funext fun a => Fin.ext ?_)
  match a with
  | ⟨0, _⟩ => show win0_0.index t (0 : Fin 2) * 256 + 1 * p.val = 512 * t.val + p.val; omega
  | ⟨1, _⟩ => show win0_0.index t (1 : Fin 2) * 10000 + 1 * k.val = k.val; omega

/-- The odd strip: adjacency rows `512 t + 256 …`. -/
theorem strip1_at (c : Dev nD) (t : Fin cfg0.N) (d1 : Vec Ideal S256x10000 .f32) (p : Fin 256) (k : Fin 10000)
    (h : 512 * t.val + 256 + p.val < 10000) :
    win0_1.fill (grid0.coords t) d1 (iblk m c 1 t) (ix2 p k) = argA m c (ix2 ⟨512 * t.val + 256 + p.val, h⟩ k) := by
  obtain ⟨-, -, e10, e11, -⟩ := idx_facts t
  obtain ⟨-, -, x10, x11, -⟩ := xsize_facts t
  rw [fill_apply_of_lt win0_1 (grid0.coords t) d1 (iblk m c 1 t) (ix2 p k) (fun a => by
    match a with
    | ⟨0, _⟩ => show p.val < win0_1.xsize (grid0.coords t) (0 : Fin 2); have := p.isLt; omega
    | ⟨1, _⟩ => show k.val < win0_1.xsize (grid0.coords t) (1 : Fin 2); have := k.isLt; omega)]
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 256 + 1 * p.val = 512 * t.val + 256 + p.val; omega
  | ⟨1, _⟩ => show win0_1.index t (1 : Fin 2) * 10000 + 1 * k.val = k.val; omega

/-- The degree block: degrees of nodes `512 t …`. -/
theorem deg_at (c : Dev nD) (t : Fin cfg0.N) (d3 : Vec Ideal S512x1 .f32) (p : Fin 512)
    (h : 512 * t.val + p.val < 10000) :
    win0_3.fill (grid0.coords t) d3 (iblk m c 3 t) (ix2 p 0) = argDeg m c (ix2 ⟨512 * t.val + p.val, h⟩ 0) := by
  obtain ⟨-, -, -, -, -, -, e30, e31, -⟩ := idx_facts t
  obtain ⟨-, -, -, -, x30, x31⟩ := xsize_facts t
  rw [fill_apply_of_lt win0_3 (grid0.coords t) d3 (iblk m c 3 t) (ix2 p 0) (fun a => by
    match a with
    | ⟨0, _⟩ => show p.val < win0_3.xsize (grid0.coords t) (0 : Fin 2); have := p.isLt; omega
    | ⟨1, _⟩ => show 0 < win0_3.xsize (grid0.coords t) (1 : Fin 2); omega)]
  show V m c main_arg2 (((cfg0.win 3).blk t).view.emb _) = _
  rw [V_main_arg2]
  refine congrArg (m ((c : Thread nD τ).loc main_arg2)) (funext fun a => Fin.ext ?_)
  match a with
  | ⟨0, _⟩ => show win0_3.index t (0 : Fin 2) * 512 + 1 * p.val = 512 * t.val + p.val; omega
  | ⟨1, _⟩ => show win0_3.index t (1 : Fin 2) * 1 + 1 * 0 = 0; omega

/-- The weight block is the weight transposed. -/
theorem wt_at (c : Dev nD) (t : Fin cfg0.N) (j o : Fin 128) : iblk m c 4 t (ix2 j o) = argW m c (ix2 o j) := by
  obtain ⟨-, -, -, -, -, -, -, -, e40, e41, -⟩ := idx_facts t
  show V m c main_call0_v0 (((cfg0.win 4).blk t).view.emb (ix2 j o)) = _
  have e : ((cfg0.win 4).blk t).view.emb (ix2 j o) = ix2 j o :=
    funext fun a => Fin.ext (by
      match a with
      | ⟨0, _⟩ => show win0_4.index t (0 : Fin 2) * 128 + 1 * j.val = j.val; omega
      | ⟨1, _⟩ => show win0_4.index t (1 : Fin 2) * 128 + 1 * o.val = o.val; omega)
  rw [e]
  exact (congrFun (V_wt m c) (ix2 j o)).trans (transpose_ix2_apply _ _ j o)

/-- The bias block is the bias as one row. -/
theorem bias_at (c : Dev nD) (t : Fin cfg0.N) (o : Fin 128) : iblk m c 5 t (ix2 0 o) = argB m c (ix1 o) := by
  obtain ⟨-, -, -, -, -, -, -, -, -, -, e50, e51⟩ := idx_facts t
  show V m c main_call0_v1 (((cfg0.win 5).blk t).view.emb (ix2 0 o)) = _
  have e : ((cfg0.win 5).blk t).view.emb (ix2 0 o) = ix2 (0 : Fin 1) o :=
    funext fun a => Fin.ext (by
      match a with
      | ⟨0, _⟩ => show win0_5.index t (0 : Fin 2) * 1 + 1 * 0 = 0; omega
      | ⟨1, _⟩ => show win0_5.index t (1 : Fin 2) * 128 + 1 * o.val = o.val; omega)
  rw [e]
  exact (congrFun (V_bias m c) (ix2 0 o)).trans (shapeCast_a_1a_apply _ _ 0 o)

/-! ## The output block -/

/-- The claimed block at a row that stands for a node: that node's row of the layer. -/
theorem outLayer_apply (c : Dev nD) (t : Fin cfg0.N) (p : Fin 512) (o : Fin 128) (hp : 512 * t.val + p.val < 10000) :
    outLayer m c t (ix2 p o) = lay m c (ix2 ⟨512 * t.val + p.val, hp⟩ o) := by
  unfold outLayer
  exact dif_pos hp

/-- The two zero offsets of a whole-buffer access, as a constant function. -/
theorem off00_eq_zero : (![0, 0] : Fin 2 → Nat) = fun _ => 0 := funext fun a => by fin_cases a <;> rfl

/-- What the body stores at point `t`, at a row that stands for a node, is the layer's output at that node — whatever
    fills the clipped input buffers past their arrays' end. -/
theorem outAt_apply (c : Dev nD) (t : Fin cfg0.N) (d0 d1 : Vec Ideal S256x10000 .f32) (d3 : Vec Ideal S512x1 .f32)
    (p : Fin 512) (o : Fin 128) (hp : 512 * t.val + p.val < 10000) :
    outAt m c t d0 d1 d3 (ix2 p o) = lay m c (ix2 ⟨512 * t.val + p.val, hp⟩ o) := by
  show outBlk (grid0.coords t) _ _ _ _ _ _ (ix2 p o) = _
  unfold outBlk
  rw [View.canon_unit_zero off00_eq_zero]
  simp only [View.ld_unit_zero (S := S256x10000) off00_eq_zero, View.ld_unit_zero (S := S512x1) off00_eq_zero,
    View.ld_unit_zero (S := S128x128) off00_eq_zero, View.ld_unit_zero (S := S1x128) off00_eq_zero]
  exact pay_eq_layer (argX m c) (argA m c) (argDeg m c) (argW m c) (argB m c) ⟨t.val, point_lt_20 t⟩ _ _ _ _ _ _ _
    (fun k j => feat_at m c t k j)
    (fun p k h => strip0_at m c t d0 p k h)
    (fun p k h => strip1_at m c t d1 p k h)
    (fun p j h => own_at m c t p j h)
    (fun p h => deg_at m c t d3 p h)
    (fun j o => wt_at m c t j o)
    (fun o => bias_at m c t o)
    p o hp

/-- ON THE ROWS INSIDE THE ARRAY the body's store at point `t` is the layer's block, whatever fills the clipped input
    buffers past their arrays' end. -/
theorem hout (c : Dev nD) (t : Fin cfg0.N) (d0 d1 : Vec Ideal S256x10000 .f32) (d3 : Vec Ideal S512x1 .f32) :
    win0_6.cut (grid0.coords t) (outAt m c t d0 d1 d3) = win0_6.cut (grid0.coords t) (outLayer m c t) := by
  obtain ⟨-, -, x60, x61⟩ := idx6 t
  have ht := point_lt_20 t
  funext j
  have hj0 : (j 0).val < win0_6.xsize (grid0.coords t) 0 := (j 0).isLt
  have hj1 : (j 1).val < win0_6.xsize (grid0.coords t) 1 := (j 1).isLt
  have hp : 512 * t.val + (j 0).val < 10000 := by omega
  have hx : win0_6.xinj (grid0.coords t) j = ix2 (⟨(j 0).val, by omega⟩ : Fin 512) (⟨(j 1).val, by omega⟩ : Fin 128) :=
    funext fun a => by match a with | ⟨0, _⟩ => rfl | ⟨1, _⟩ => rfl
  show outAt m c t d0 d1 d3 (win0_6.xinj (grid0.coords t) j) = outLayer m c t (win0_6.xinj (grid0.coords t) j)
  rw [hx, outAt_apply m c t d0 d1 d3 _ _ hp, outLayer_apply m c t _ _ hp]

end Cert.KernelIdeal.HandValue

end
-- ==== Proof.KernelValue.lean ====
/-
  The kernel's result, at the extended reals: after every weakly fair execution the result array holds the
  graph-convolution layer of the five argument arrays, and the arguments are unchanged.

  The run is the frame's run with nothing forgotten: at every grid point the body's store is, on the rows of its block
  that lie inside the array, the layer's rows 512·t … (whatever fills the clipped input buffers past their arrays' end),
  and the twenty blocks' rows together are the rows 0 … 9999 of the result.
-/
import proofs.«117304_g23605140259235_cont_8to1_1967_15_alg».proof.Proof.FrameLaunch
import proofs.«117304_g23605140259235_cont_8to1_1967_15_alg».proof.Proof.ValueFinal
import proofs.«117304_g23605140259235_cont_8to1_1967_15_alg».proof.Proof.ValueBlocks

noncomputable section

namespace Cert.KernelIdeal.HandValue

open Cert.KernelIdeal Cert.KernelIdeal.Gen Cert.KernelIdeal.Hand
open Idealize.ShloMosaic Idealize.ShloMosaic.TcCoe
open Idealize.SL Idealize.SL.Sem
open Idealize.ShloMosaic.Pipeline (Dat RDat)

variable (m : (ℓ : Loc nD τ sig) → Buf (Elt Ideal) ℓ) (ρ : Dev nD → PrngReg)

/-- Every weakly fair execution of the idealized kernel terminates without a fault; the result array ends at the
    layer of the argument arrays and the arguments end as they began. -/
theorem run : θ_run (defs (F := Ideal)) (onTc (τ := τ) (main (F := Ideal))) ⟨m, fun _ => 0, ρ⟩ (fun r => ∀ c : Dev nD,
      r.2.mem ((c.tc : Thread nD τ).loc main_v0)
        = Cert.GcnSpec.layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      (((dats m (outLayer m) 0 c).toRForget_arrAt_iff (fgt := fun _ => false) (w := 6) rfl _ _).mp ((h c).1 6)).trans (final m c),
      ((h c).2 main_arg0 (Pipeline.mem_restRefs_of main_arg0 (by decide) (by decide))).trans (V_main_arg0 m c),
      (arr_in_of_post m (outLayer m) (fun _ => false) c 0 rfl rfl _ ((h c).1 0)).trans (V_main_arg1 m c),
      (arr_in_of_post m (outLayer m) (fun _ => false) c 3 rfl rfl _ ((h c).1 3)).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ (outLayer m) (fun _ => false) (fun c => body_exact m (outLayer m) c (hout m c)))

end Cert.KernelIdeal.HandValue

end
-- ==== Proof.lean ====
/-
  The certificate of the graph-convolution layer.

  For a node `r` with degree `d = deg r` the layer aggregates the neighbours' features weighted by the adjacency row,
  adds the node's own feature (the self-loop) and scales by the reciprocal degree, adds the feature once more, and
  applies a rectified affine map:
      pool r j = (1 / d) · (∑ₖ A r k · x k j + x r j) + x r j,    out r o = max (∑ⱼ pool r j · W o j + b o) 0.
  The kernel computes `pool` in this form. The reference instead adds one on the diagonal of the adjacency matrix,
  scales the matrix on both sides by `c = 1/√d`, and multiplies by the features:
      ∑ₖ (c · (A r k + [r = k]) · c) · x k j + x r j.
  Over the reals, for `d > 0`, `c · c = 1/d`, and distributing the finite sum over `A r k + [r = k]` splits off the
  self-loop term `(1/d) · x r j`; so the two forms agree whenever every entry is finite and every degree is positive,
  which is what the precondition states (each array's entries have absolute value below infinity, and each degree is
  above zero). Both programs are proved equal, index by index, to the one function `Cert.GcnSpec.layer` of the five
  argument arrays; the outer affine map and the rectification are literally the same on both sides, the reference
  reading the weights through a transpose.

  The three frames: each program terminates without a fault and leaves its argument arrays unchanged. The kernel's
  two frames hold from any memory; the reference's is its run with the result dropped. The idealization rewrote no
  operation, so there is nothing to preserve.
-/
import proofs.«117304_g23605140259235_cont_8to1_1967_15_alg».proof.Defs
import proofs.«117304_g23605140259235_cont_8to1_1967_15_alg».proof.Proof.Gen.Kernel
import proofs.«117304_g23605140259235_cont_8to1_1967_15_alg».proof.Proof.Gen.KernelIdeal
import proofs.«117304_g23605140259235_cont_8to1_1967_15_alg».proof.Proof.Gen.ReferenceIdeal
import proofs.«117304_g23605140259235_cont_8to1_1967_15_alg».proof.Proof.Gen.ReferenceIdeal.Run
import proofs.«117304_g23605140259235_cont_8to1_1967_15_alg».proof.Proof.Gen.ReferenceIdeal.Read
import proofs.«117304_g23605140259235_cont_8to1_1967_15_alg».proof.Proof.Gen.Pre_finite_inputs
import proofs.«117304_g23605140259235_cont_8to1_1967_15_alg».proof.Proof.Spec
import proofs.«117304_g23605140259235_cont_8to1_1967_15_alg».proof.Proof.RefAt
import proofs.«117304_g23605140259235_cont_8to1_1967_15_alg».proof.Proof.PreFacts
import proofs.«117304_g23605140259235_cont_8to1_1967_15_alg».proof.Proof.FrameLaunchK
import proofs.«117304_g23605140259235_cont_8to1_1967_15_alg».proof.Proof.FrameLaunch
import proofs.«117304_g23605140259235_cont_8to1_1967_15_alg».proof.Proof.KernelValue
import Idealize.ShloMosaic.Adequacy
import Idealize.ShloMosaic.Init

noncomputable section

namespace Cert.Proof

open Idealize.ShloMosaic Idealize.SL.Sem

/-- The kernel, at the word level, terminates without a fault and leaves its arguments unchanged. -/
theorem frame_k : Cert.frame_Kernel := fun m ρ _ => Cert.Kernel.Hand.frame m ρ

/-- The kernel, at the ideal values, terminates without a fault and leaves its arguments unchanged. -/
theorem frame_ki : Cert.frame_KernelIdeal := fun m ρ _ => Cert.KernelIdeal.Hand.frame m ρ

/-- The reference terminates without a fault and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the layer of the specification of their argument arrays: the kernel
    from any memory, the reference when every entry is finite and every degree positive, which the precondition
    gives for the kernel's arrays and the agreement of the memories carries to the reference's. -/
theorem algebraic : Cert.algebraic_KernelIdeal_ReferenceIdeal := by
  intro m ρ m' ρ' hpre hagree
  refine ⟨fun c => Cert.GcnSpec.layer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, _, _, fpos⟩ := Cert.PreFacts.pre_facts _ _ _ _ _ (hpre c)
  obtain ⟨a0, a1, a2, a3, a4⟩ := hagree c
  rw [Cert.ReferenceIdeal.Read.val_main_v28_eq, a0, a1, a2, a3, a4]
  exact Cert.ReferenceIdeal.RefValue.reference_eq_layer _ _ _ _ _ f0 f1 f2 fpos

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
